-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v273)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v273) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S3x100000 : Shape := ⟨2, ![3, 100000]⟩
abbrev S2x3 : Shape := ⟨2, ![2, 3]⟩
abbrev S1024x2048 : Shape := ⟨2, ![1024, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S2x3 : S_.BroadcastsInDim S2x3 (![] : Fin 0 → Fin S2x3.rank)
  reducesTo_S2x3_S_d0_1 : S2x3.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg8 : FVec F S2048x512 .f32) (main_arg9 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg8
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S512 .f32 := Host.absf main_arg9
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S20000x1024 .f32) (main_arg1 : IVec S3x100000 32) (main_arg2 : IVec S3x100000 32) (main_arg3 : IVec S3x100000 32) (main_arg4 : IVec S3x100000 32) (main_arg5 : FVec F S2x3 .f32) (main_arg6 : FVec F S1024x2048 .f32) (main_arg7 : FVec F S2048 .f32) (main_arg8 : FVec F S2048x512 .f32) (main_arg9 : FVec F S512 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S2x3 .f32 := Host.absf main_arg5
  let main_cst_0 : FVec F S_ .f32 := constant S_ .f32 0x7F800000#32
  let main_v5 : FVec F S2x3 .f32 := broadcastInDim S2x3 ![] bcast_S_S2x3 main_cst_0
  let main_v6 : IVec S2x3 1 := cmpf .olt main_v4 main_v5
  let main_c_1 : IVec S_ 1 := constantI S_ 1 1#1
  let main_v7 : IVec S_ 1 := (fun x v => Host.reduce IntOp.andi x v reducesTo_S2x3_S_d0_1 h_S_) main_v6 main_c_1
  let main_v8 : IVec S_ 1 := andi main_v3 main_v7
  let main_v9 : FVec F S1024x2048 .f32 := Host.absf main_arg6
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048 .f32 := Host.absf main_arg7
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg8 main_arg9 main_v13 main_v16
-- ==== Kernel.lean ====
abbrev S20000x1024 : Shape := ⟨2, ![20000, 1024]⟩
abbrev S3x100000 : Shape := ⟨2, ![3, 100000]⟩
abbrev S2x3 : Shape := ⟨2, ![2, 3]⟩
abbrev S1024x2048 : Shape := ⟨2, ![1024, 2048]⟩
abbrev S2048 : Shape := ⟨1, ![2048]⟩
abbrev S2048x512 : Shape := ⟨2, ![2048, 512]⟩
abbrev S512 : Shape := ⟨1, ![512]⟩
abbrev S1x3 : Shape := ⟨2, ![1, 3]⟩
abbrev S3 : Shape := ⟨1, ![3]⟩
abbrev S1x2048 : Shape := ⟨2, ![1, 2048]⟩
abbrev S20000x2048 : Shape := ⟨2, ![20000, 2048]⟩
abbrev S1000x1024 : Shape := ⟨2, ![1000, 1024]⟩
abbrev S1000x2048 : Shape := ⟨2, ![1000, 2048]⟩
abbrev S_ : Shape := ⟨0, ![]⟩
abbrev S1 : Shape := ⟨1, ![1]⟩
abbrev S1x100000 : Shape := ⟨2, ![1, 100000]⟩
abbrev S100000 : Shape := ⟨1, ![100000]⟩
abbrev S20000 : Shape := ⟨1, ![20000]⟩
abbrev S100000x1 : Shape := ⟨2, ![100000, 1]⟩
abbrev S100000x2048 : Shape := ⟨2, ![100000, 2048]⟩
abbrev S1x512 : Shape := ⟨2, ![1, 512]⟩
abbrev S20000x512 : Shape := ⟨2, ![20000, 512]⟩
abbrev S1000x512 : Shape := ⟨2, ![1000, 512]⟩
abbrev S100000x512 : Shape := ⟨2, ![100000, 512]⟩
abbrev S1000 : Shape := ⟨1, ![1000]⟩
abbrev S1000x1 : Shape := ⟨2, ![1000, 1]⟩

abbrev nBuf : Space → Nat
  | .hbm => 348
  | .vmem => 16
  | .smem => 0
  | _ => 0

abbrev hbmTy0_0 (i : Nat) : BufTy := match i % 128 with
  | 0 => ⟨S20000x1024, .f32⟩
  | 1 => ⟨S3x100000, .i32⟩
  | 2 => ⟨S3x100000, .i32⟩
  | 3 => ⟨S3x100000, .i32⟩
  | 4 => ⟨S3x100000, .i32⟩
  | 5 => ⟨S2x3, .f32⟩
  | 6 => ⟨S1024x2048, .f32⟩
  | 7 => ⟨S2048, .f32⟩
  | 8 => ⟨S2048x512, .f32⟩
  | 9 => ⟨S512, .f32⟩
  | 10 => ⟨S1x3, .f32⟩
  | 11 => ⟨S3, .f32⟩
  | 12 => ⟨S20000x1024, .bf16⟩
  | 13 => ⟨S1024x2048, .bf16⟩
  | 14 => ⟨S1x2048, .f32⟩
  | 15 => ⟨S20000x2048, .f32⟩
  | 16 => ⟨S_, .f32⟩
  | 17 => ⟨S_, .f32⟩
  | 18 => ⟨S_, .f32⟩
  | 19 => ⟨S_, .f32⟩
  | 20 => ⟨S1, .f32⟩
  | 21 => ⟨S3, .f32⟩
  | 22 => ⟨S3, .f32⟩
  | 23 => ⟨S3, .f32⟩
  | 24 => ⟨S_, .f32⟩
  | 25 => ⟨S_, .f32⟩
  | 26 => ⟨S1, .f32⟩
  | 27 => ⟨S3, .f32⟩
  | 28 => ⟨S3, .f32⟩
  | 29 => ⟨S_, .f32⟩
  | 30 => ⟨S20000x2048, .f32⟩
  | 31 => ⟨S1x100000, .i32⟩
  | 32 => ⟨S100000, .i32⟩
  | 33 => ⟨S_, .f32⟩
  | 34 => ⟨S100000, .f32⟩
  | 35 => ⟨S_, .f32⟩
  | 36 => ⟨S20000, .f32⟩
  | 37 => ⟨S100000x1, .i32⟩
  | 38 => ⟨S20000, .f32⟩
  | 39 => ⟨S_, .f32⟩
  | 40 => ⟨S20000, .f32⟩
  | 41 => ⟨S20000, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000, .f32⟩
  | 51 => ⟨S_, .f32⟩
  | 52 => ⟨S100000, .f32⟩
  | 53 => ⟨S100000, .f32⟩
  | 54 => ⟨S1x100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x2048, .f32⟩
  | 65 => ⟨S100000x1, .f32⟩
  | 66 => ⟨S100000x2048, .f32⟩
  | 67 => ⟨S100000x2048, .f32⟩
  | 68 => ⟨S1x100000, .i32⟩
  | 69 => ⟨S100000, .i32⟩
  | 70 => ⟨S_, .f32⟩
  | 71 => ⟨S20000x2048, .f32⟩
  | 72 => ⟨S100000x1, .i32⟩
  | 73 => ⟨S20000x2048, .f32⟩
  | 74 => ⟨S1, .f32⟩
  | 75 => ⟨S_, .f32⟩
  | 76 => ⟨S20000x2048, .f32⟩
  | 77 => ⟨S20000x2048, .f32⟩
  | 78 => ⟨S20000x2048, .f32⟩
  | 79 => ⟨S1x100000, .i32⟩
  | 80 => ⟨S100000, .i32⟩
  | 81 => ⟨S_, .f32⟩
  | 82 => ⟨S100000, .f32⟩
  | 83 => ⟨S_, .f32⟩
  | 84 => ⟨S20000, .f32⟩
  | 85 => ⟨S100000x1, .i32⟩
  | 86 => ⟨S20000, .f32⟩
  | 87 => ⟨S_, .f32⟩
  | 88 => ⟨S20000, .f32⟩
  | 89 => ⟨S20000, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000, .f32⟩
  | 99 => ⟨S_, .f32⟩
  | 100 => ⟨S100000, .f32⟩
  | 101 => ⟨S100000, .f32⟩
  | 102 => ⟨S1x100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x2048, .f32⟩
  | 113 => ⟨S100000x1, .f32⟩
  | 114 => ⟨S100000x2048, .f32⟩
  | 115 => ⟨S100000x2048, .f32⟩
  | 116 => ⟨S1x100000, .i32⟩
  | 117 => ⟨S100000, .i32⟩
  | 118 => ⟨S_, .f32⟩
  | 119 => ⟨S20000x2048, .f32⟩
  | 120 => ⟨S100000x1, .i32⟩
  | 121 => ⟨S20000x2048, .f32⟩
  | 122 => ⟨S1, .f32⟩
  | 123 => ⟨S_, .f32⟩
  | 124 => ⟨S20000x2048, .f32⟩
  | 125 => ⟨S20000x2048, .f32⟩
  | 126 => ⟨S20000x2048, .f32⟩
  | 127 => ⟨S1x100000, .i32⟩
  | _ => ⟨S20000x1024, .f32⟩

abbrev hbmTy0_1 (i : Nat) : BufTy := match i % 128 with
  | 0 => ⟨S100000, .i32⟩
  | 1 => ⟨S_, .f32⟩
  | 2 => ⟨S100000, .f32⟩
  | 3 => ⟨S_, .f32⟩
  | 4 => ⟨S20000, .f32⟩
  | 5 => ⟨S100000x1, .i32⟩
  | 6 => ⟨S20000, .f32⟩
  | 7 => ⟨S_, .f32⟩
  | 8 => ⟨S20000, .f32⟩
  | 9 => ⟨S20000, .f32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000, .f32⟩
  | 19 => ⟨S_, .f32⟩
  | 20 => ⟨S100000, .f32⟩
  | 21 => ⟨S100000, .f32⟩
  | 22 => ⟨S1x100000, .i32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x2048, .f32⟩
  | 33 => ⟨S100000x1, .f32⟩
  | 34 => ⟨S100000x2048, .f32⟩
  | 35 => ⟨S100000x2048, .f32⟩
  | 36 => ⟨S1x100000, .i32⟩
  | 37 => ⟨S100000, .i32⟩
  | 38 => ⟨S_, .f32⟩
  | 39 => ⟨S20000x2048, .f32⟩
  | 40 => ⟨S100000x1, .i32⟩
  | 41 => ⟨S20000x2048, .f32⟩
  | 42 => ⟨S1, .f32⟩
  | 43 => ⟨S_, .f32⟩
  | 44 => ⟨S20000x2048, .f32⟩
  | 45 => ⟨S20000x2048, .f32⟩
  | 46 => ⟨S20000x2048, .f32⟩
  | 47 => ⟨S_, .f32⟩
  | 48 => ⟨S20000x2048, .f32⟩
  | 49 => ⟨S20000x2048, .i1⟩
  | 50 => ⟨S_, .f32⟩
  | 51 => ⟨S20000x2048, .f32⟩
  | 52 => ⟨S20000x2048, .f32⟩
  | 53 => ⟨S20000x2048, .f32⟩
  | 54 => ⟨S1x3, .f32⟩
  | 55 => ⟨S3, .f32⟩
  | 56 => ⟨S20000x2048, .bf16⟩
  | 57 => ⟨S2048x512, .bf16⟩
  | 58 => ⟨S1x512, .f32⟩
  | 59 => ⟨S20000x512, .f32⟩
  | 60 => ⟨S_, .f32⟩
  | 61 => ⟨S_, .f32⟩
  | 62 => ⟨S_, .f32⟩
  | 63 => ⟨S_, .f32⟩
  | 64 => ⟨S1, .f32⟩
  | 65 => ⟨S3, .f32⟩
  | 66 => ⟨S3, .f32⟩
  | 67 => ⟨S3, .f32⟩
  | 68 => ⟨S_, .f32⟩
  | 69 => ⟨S_, .f32⟩
  | 70 => ⟨S1, .f32⟩
  | 71 => ⟨S3, .f32⟩
  | 72 => ⟨S3, .f32⟩
  | 73 => ⟨S_, .f32⟩
  | 74 => ⟨S20000x512, .f32⟩
  | 75 => ⟨S1x100000, .i32⟩
  | 76 => ⟨S100000, .i32⟩
  | 77 => ⟨S_, .f32⟩
  | 78 => ⟨S100000, .f32⟩
  | 79 => ⟨S_, .f32⟩
  | 80 => ⟨S20000, .f32⟩
  | 81 => ⟨S100000x1, .i32⟩
  | 82 => ⟨S20000, .f32⟩
  | 83 => ⟨S_, .f32⟩
  | 84 => ⟨S20000, .f32⟩
  | 85 => ⟨S20000, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000, .f32⟩
  | 95 => ⟨S_, .f32⟩
  | 96 => ⟨S100000, .f32⟩
  | 97 => ⟨S100000, .f32⟩
  | 98 => ⟨S1x100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x512, .f32⟩
  | 109 => ⟨S100000x1, .f32⟩
  | 110 => ⟨S100000x512, .f32⟩
  | 111 => ⟨S100000x512, .f32⟩
  | 112 => ⟨S1x100000, .i32⟩
  | 113 => ⟨S100000, .i32⟩
  | 114 => ⟨S_, .f32⟩
  | 115 => ⟨S20000x512, .f32⟩
  | 116 => ⟨S100000x1, .i32⟩
  | 117 => ⟨S20000x512, .f32⟩
  | 118 => ⟨S1, .f32⟩
  | 119 => ⟨S_, .f32⟩
  | 120 => ⟨S20000x512, .f32⟩
  | 121 => ⟨S20000x512, .f32⟩
  | 122 => ⟨S20000x512, .f32⟩
  | 123 => ⟨S1x100000, .i32⟩
  | 124 => ⟨S100000, .i32⟩
  | 125 => ⟨S_, .f32⟩
  | 126 => ⟨S100000, .f32⟩
  | 127 => ⟨S_, .f32⟩
  | _ => ⟨S20000x1024, .f32⟩

abbrev hbmTy0_2 (i : Nat) : BufTy := match i % 128 with
  | 0 => ⟨S20000, .f32⟩
  | 1 => ⟨S100000x1, .i32⟩
  | 2 => ⟨S20000, .f32⟩
  | 3 => ⟨S_, .f32⟩
  | 4 => ⟨S20000, .f32⟩
  | 5 => ⟨S20000, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000, .f32⟩
  | 15 => ⟨S_, .f32⟩
  | 16 => ⟨S100000, .f32⟩
  | 17 => ⟨S100000, .f32⟩
  | 18 => ⟨S1x100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x512, .f32⟩
  | 29 => ⟨S100000x1, .f32⟩
  | 30 => ⟨S100000x512, .f32⟩
  | 31 => ⟨S100000x512, .f32⟩
  | 32 => ⟨S1x100000, .i32⟩
  | 33 => ⟨S100000, .i32⟩
  | 34 => ⟨S_, .f32⟩
  | 35 => ⟨S20000x512, .f32⟩
  | 36 => ⟨S100000x1, .i32⟩
  | 37 => ⟨S20000x512, .f32⟩
  | 38 => ⟨S1, .f32⟩
  | 39 => ⟨S_, .f32⟩
  | 40 => ⟨S20000x512, .f32⟩
  | 41 => ⟨S20000x512, .f32⟩
  | 42 => ⟨S20000x512, .f32⟩
  | 43 => ⟨S1x100000, .i32⟩
  | 44 => ⟨S100000, .i32⟩
  | 45 => ⟨S_, .f32⟩
  | 46 => ⟨S100000, .f32⟩
  | 47 => ⟨S_, .f32⟩
  | 48 => ⟨S20000, .f32⟩
  | 49 => ⟨S100000x1, .i32⟩
  | 50 => ⟨S20000, .f32⟩
  | 51 => ⟨S_, .f32⟩
  | 52 => ⟨S20000, .f32⟩
  | 53 => ⟨S20000, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000, .f32⟩
  | 63 => ⟨S_, .f32⟩
  | 64 => ⟨S100000, .f32⟩
  | 65 => ⟨S100000, .f32⟩
  | 66 => ⟨S1x100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x512, .f32⟩
  | 77 => ⟨S100000x1, .f32⟩
  | 78 => ⟨S100000x512, .f32⟩
  | 79 => ⟨S100000x512, .f32⟩
  | 80 => ⟨S1x100000, .i32⟩
  | 81 => ⟨S100000, .i32⟩
  | 82 => ⟨S_, .f32⟩
  | 83 => ⟨S20000x512, .f32⟩
  | 84 => ⟨S100000x1, .i32⟩
  | 85 => ⟨S20000x512, .f32⟩
  | 86 => ⟨S1, .f32⟩
  | 87 => ⟨S_, .f32⟩
  | 88 => ⟨S20000x512, .f32⟩
  | 89 => ⟨S20000x512, .f32⟩
  | 90 => ⟨S20000x512, .f32⟩
  | 91 => ⟨S20000x512, .f32⟩
  | _ => ⟨S20000x1024, .f32⟩

abbrev hbmTy (i : Nat) : BufTy := match i / 128 with
  | 0 => hbmTy0_0 i
  | 1 => hbmTy0_1 i
  | 2 => hbmTy0_2 i
  | _ => ⟨S20000x1024, .f32⟩

abbrev bufTy : (tb : Table) → Fin (tcTables nBuf tb) → BufTy
  | .hbm, ⟨i, _⟩ => hbmTy i
  | .local _ .vmem, ⟨0, _⟩ => ⟨S1000x1024, .bf16⟩
  | .local _ .vmem, ⟨1, _⟩ => ⟨S1000x1024, .bf16⟩
  | .local _ .vmem, ⟨2, _⟩ => ⟨S1024x2048, .bf16⟩
  | .local _ .vmem, ⟨3, _⟩ => ⟨S1x2048, .f32⟩
  | .local _ .vmem, ⟨4, _⟩ => ⟨S1000x2048, .f32⟩
  | .local _ .vmem, ⟨5, _⟩ => ⟨S1000x2048, .f32⟩
  | .local _ .vmem, ⟨6, _⟩ => ⟨S1000x2048, .bf16⟩
  | .local _ .vmem, ⟨7, _⟩ => ⟨S1000x2048, .bf16⟩
  | .local _ .vmem, ⟨8, _⟩ => ⟨S2048x512, .bf16⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_c_23 : Ref sig .tc := ⟨.hbm, 138, rfl⟩
abbrev main_v103 : Ref sig .tc := ⟨.hbm, 139, rfl⟩
abbrev main_v104 : Ref sig .tc := ⟨.hbm, 140, rfl⟩
abbrev main_c_24 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_26 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_28 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_29 : Ref sig .tc := ⟨.hbm, 175, rfl⟩
abbrev main_v134 : Ref sig .tc := ⟨.hbm, 176, rfl⟩
abbrev main_v135 : Ref sig .tc := ⟨.hbm, 177, rfl⟩
abbrev main_cst_30 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_cst_32 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_33 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_34 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_35 : Ref sig .tc := ⟨.hbm, 205, rfl⟩
abbrev main_v158 : Ref sig .tc := ⟨.hbm, 206, rfl⟩
abbrev main_cst_36 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_37 : Ref sig .tc := ⟨.hbm, 211, rfl⟩
abbrev main_v162 : Ref sig .tc := ⟨.hbm, 212, rfl⟩
abbrev main_v163 : Ref sig .tc := ⟨.hbm, 213, rfl⟩
abbrev main_c_38 : Ref sig .tc := ⟨.hbm, 214, rfl⟩
abbrev main_v164 : Ref sig .tc := ⟨.hbm, 215, rfl⟩
abbrev main_v165 : Ref sig .tc := ⟨.hbm, 216, rfl⟩
abbrev main_c_39 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_40 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_c_41 : Ref sig .tc := ⟨.hbm, 228, rfl⟩
abbrev main_v175 : Ref sig .tc := ⟨.hbm, 229, rfl⟩
abbrev main_v176 : Ref sig .tc := ⟨.hbm, 230, rfl⟩
abbrev main_c_42 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_43 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_cst_44 : Ref sig .tc := ⟨.hbm, 253, rfl⟩
abbrev main_v197 : Ref sig .tc := ⟨.hbm, 254, rfl⟩
abbrev main_cst_45 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_46 : Ref sig .tc := ⟨.hbm, 259, rfl⟩
abbrev main_v201 : Ref sig .tc := ⟨.hbm, 260, rfl⟩
abbrev main_v202 : Ref sig .tc := ⟨.hbm, 261, rfl⟩
abbrev main_c_47 : Ref sig .tc := ⟨.hbm, 262, rfl⟩
abbrev main_v203 : Ref sig .tc := ⟨.hbm, 263, rfl⟩
abbrev main_v204 : Ref sig .tc := ⟨.hbm, 264, rfl⟩
abbrev main_c_48 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_cst_49 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_c_50 : Ref sig .tc := ⟨.hbm, 276, rfl⟩
abbrev main_v214 : Ref sig .tc := ⟨.hbm, 277, rfl⟩
abbrev main_v215 : Ref sig .tc := ⟨.hbm, 278, rfl⟩
abbrev main_c_51 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_cst_52 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_cst_53 : Ref sig .tc := ⟨.hbm, 301, rfl⟩
abbrev main_v236 : Ref sig .tc := ⟨.hbm, 302, rfl⟩
abbrev main_cst_54 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_55 : Ref sig .tc := ⟨.hbm, 307, rfl⟩
abbrev main_v240 : Ref sig .tc := ⟨.hbm, 308, rfl⟩
abbrev main_v241 : Ref sig .tc := ⟨.hbm, 309, rfl⟩
abbrev main_c_56 : Ref sig .tc := ⟨.hbm, 310, rfl⟩
abbrev main_v242 : Ref sig .tc := ⟨.hbm, 311, rfl⟩
abbrev main_v243 : Ref sig .tc := ⟨.hbm, 312, rfl⟩
abbrev main_c_57 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_58 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_c_59 : Ref sig .tc := ⟨.hbm, 324, rfl⟩
abbrev main_v253 : Ref sig .tc := ⟨.hbm, 325, rfl⟩
abbrev main_v254 : Ref sig .tc := ⟨.hbm, 326, rfl⟩
abbrev main_c_60 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_cst_61 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3_S1x3_0_0 : S2x3.Slices ![0, 0] S1x3
  shapeCasts_S1x3_S3 : S1x3.ShapeCasts S3
  bitsLt_bf16_f32 : FTy.bits .bf16 < FTy.bits .f32
  shapeCasts_S2048_S1x2048 : S2048.ShapeCasts S1x2048
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S20000x2048 : S_.BroadcastsInDim S20000x2048 (![] : Fin 0 → Fin S20000x2048.rank)
  slices_S3x100000_S1x100000_0_0 : S3x100000.Slices ![0, 0] S1x100000
  shapeCasts_S1x100000_S100000 : S1x100000.ShapeCasts S100000
  bcast_S_S100000 : S_.BroadcastsInDim S100000 (![] : Fin 0 → Fin S100000.rank)
  bcast_S_S20000 : S_.BroadcastsInDim S20000 (![] : Fin 0 → Fin S20000.rank)
  bcast_S100000_S100000x1_0 : S100000.BroadcastsInDim S100000x1 (![0] : Fin 1 → Fin S100000x1.rank)
  bcast_S100000x1_S100000x2048_0_1 : S100000x1.BroadcastsInDim S100000x2048 (![0, 1] : Fin 2 → Fin S100000x2048.rank)
  slices_S3_S1_0 : S3.Slices ![0] S1
  shapeCasts_S1_S_ : S1.ShapeCasts S_
  slices_S3x100000_S1x100000_1_0 : S3x100000.Slices ![1, 0] S1x100000
  slices_S3_S1_1 : S3.Slices ![1] S1
  slices_S3x100000_S1x100000_2_0 : S3x100000.Slices ![2, 0] S1x100000
  slices_S3_S1_2 : S3.Slices ![2] S1
  slices_S2x3_S1x3_1_0 : S2x3.Slices ![1, 0] S1x3
  shapeCasts_S512_S1x512 : S512.ShapeCasts S1x512
  shapeCasts_S1000x2048_S1000x2048 : S1000x2048.ShapeCasts S1000x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S20000x512 : S_.BroadcastsInDim S20000x512 (![] : Fin 0 → Fin S20000x512.rank)
  bcast_S100000x1_S100000x512_0_1 : S100000x1.BroadcastsInDim S100000x512 (![0, 1] : Fin 2 → Fin S100000x512.rank)
  shapeCasts_S1000x512_S1000x512 : S1000x512.ShapeCasts S1000x512
  reduces_S1000x512_S1000 : S1000x512.Reduces [1] S1000
  shapeCasts_S1000_S1000x1 : S1000.ShapeCasts S1000x1
  broadcasts_S1000x1_S1000x512 : S1000x1.Broadcasts S1000x512
  dot_S1000x1024_S1024x2048_S1000x2048_1_0_0_1_n_n_wf : DotDims.WF S1000x1024 S1024x2048 S1000x2048 [1] [0] [0] [1] [] []
  scatter_S20000_S100000x1_S100000_n_0_0_1_wf : ScatterDims.WF S20000 S100000x1 S100000 [] [0] [0] 1
  gather_S20000_S100000x1_S100000_n_0_n_n_0_1_1_wf : GatherDims.WF S20000 S100000x1 S100000 [] [0] [] [0] [] 1 ![1]
  gather_S20000x2048_S100000x1_S100000x2048_1_0_n_n_0_1_12048_wf : GatherDims.WF S20000x2048 S100000x1 S100000x2048 [1] [0] [] [0] [] 1 ![1, 2048]
  scatter_S20000x2048_S100000x1_S100000x2048_1_0_0_1_wf : ScatterDims.WF S20000x2048 S100000x1 S100000x2048 [1] [0] [0] 1
  dot_S1000x2048_S2048x512_S1000x512_1_0_0_1_n_n_wf : DotDims.WF S1000x2048 S2048x512 S1000x512 [1] [0] [0] [1] [] []
  gather_S20000x512_S100000x1_S100000x512_1_0_n_n_0_1_1512_wf : GatherDims.WF S20000x512 S100000x1 S100000x512 [1] [0] [] [0] [] 1 ![1, 512]
  scatter_S20000x512_S100000x1_S100000x512_1_0_0_1_wf : ScatterDims.WF S20000x512 S100000x1 S100000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S20000x1024.size a
  hwx0_0 : ∀ i : grid0.Coords, EltTy.bits .bf16 = 32 ∨ (Rect.block (s := S20000x1024) S1000x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S20000x2048.size a
  hwx0_3 : ∀ i : grid0.Coords, EltTy.bits .f32 = 32 ∨ (Rect.block (s := S20000x2048) S1000x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S20000x2048.size a
  hwx1_0 : ∀ i : grid1.Coords, EltTy.bits .bf16 = 32 ∨ (Rect.block (s := S20000x2048) S1000x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S20000x512.size a
  hwx1_3 : ∀ i : grid1.Coords, EltTy.bits .f32 = 32 ∨ (Rect.block (s := S20000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)

variable [Facts₀]

def dot_S1000x1024_S1024x2048_S1000x2048_1_0_0_1_n_n : DotDims S1000x1024 S1024x2048 S1000x2048 where
  lhsContracting := [1]
  rhsContracting := [0]
  lhsNonContracting := [0]
  rhsNonContracting := [1]
  lhsBatch := []
  rhsBatch := []
  wf := dot_S1000x1024_S1024x2048_S1000x2048_1_0_0_1_n_n_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def gather_S20000x2048_S100000x1_S100000x2048_1_0_n_n_0_1_12048 : GatherDims S20000x2048 S100000x1 S100000x2048 where
  offsetDims := [1]
  collapsedSliceDims := [0]
  operandBatchingDims := []
  startIndicesBatchingDims := []
  startIndexMap := [0]
  indexVectorDim := 1
  sliceSizes := ![1, 2048]
  wf := gather_S20000x2048_S100000x1_S100000x2048_1_0_n_n_0_1_12048_wf
def scatter_S20000x2048_S100000x1_S100000x2048_1_0_0_1 : ScatterDims S20000x2048 S100000x1 S100000x2048 where
  updateWindowDims := [1]
  insertedWindowDims := [0]
  scatterDimsToOperandDims := [0]
  indexVectorDim := 1
  wf := scatter_S20000x2048_S100000x1_S100000x2048_1_0_0_1_wf
def dot_S1000x2048_S2048x512_S1000x512_1_0_0_1_n_n : DotDims S1000x2048 S2048x512 S1000x512 where
  lhsContracting := [1]
  rhsContracting := [0]
  lhsNonContracting := [0]
  rhsNonContracting := [1]
  lhsBatch := []
  rhsBatch := []
  wf := dot_S1000x2048_S2048x512_S1000x512_1_0_0_1_n_n_wf
def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf

abbrev win0_0 : Pipeline.Window sig grid0 :=
  Pipeline.Window.ofSpec (Memref.whole main_v2) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v141) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v142) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v143) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v144) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v272) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v273) S1000x512.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S20000x1024 : Shape := ⟨2, ![20000, 1024]⟩
abbrev S3x100000 : Shape := ⟨2, ![3, 100000]⟩
abbrev S2x3 : Shape := ⟨2, ![2, 3]⟩
abbrev S1024x2048 : Shape := ⟨2, ![1024, 2048]⟩
abbrev S2048 : Shape := ⟨1, ![2048]⟩
abbrev S2048x512 : Shape := ⟨2, ![2048, 512]⟩
abbrev S512 : Shape := ⟨1, ![512]⟩
abbrev S1x3 : Shape := ⟨2, ![1, 3]⟩
abbrev S3 : Shape := ⟨1, ![3]⟩
abbrev S20000x2048 : Shape := ⟨2, ![20000, 2048]⟩
abbrev S1x2048 : Shape := ⟨2, ![1, 2048]⟩
abbrev S_ : Shape := ⟨0, ![]⟩
abbrev S1 : Shape := ⟨1, ![1]⟩
abbrev S1x100000 : Shape := ⟨2, ![1, 100000]⟩
abbrev S100000 : Shape := ⟨1, ![100000]⟩
abbrev S20000 : Shape := ⟨1, ![20000]⟩
abbrev S100000x1 : Shape := ⟨2, ![100000, 1]⟩
abbrev S100000x2048 : Shape := ⟨2, ![100000, 2048]⟩
abbrev S20000x512 : Shape := ⟨2, ![20000, 512]⟩
abbrev S1x512 : Shape := ⟨2, ![1, 512]⟩
abbrev S100000x512 : Shape := ⟨2, ![100000, 512]⟩
abbrev S20000x1 : Shape := ⟨2, ![20000, 1]⟩

abbrev nBuf : Space → Nat
  | .hbm => 357
  | .vmem => 0
  | .smem => 0
  | _ => 0

abbrev hbmTy0_0 (i : Nat) : BufTy := match i % 128 with
  | 0 => ⟨S20000x1024, .f32⟩
  | 1 => ⟨S3x100000, .i32⟩
  | 2 => ⟨S3x100000, .i32⟩
  | 3 => ⟨S3x100000, .i32⟩
  | 4 => ⟨S3x100000, .i32⟩
  | 5 => ⟨S2x3, .f32⟩
  | 6 => ⟨S1024x2048, .f32⟩
  | 7 => ⟨S2048, .f32⟩
  | 8 => ⟨S2048x512, .f32⟩
  | 9 => ⟨S512, .f32⟩
  | 10 => ⟨S1x3, .f32⟩
  | 11 => ⟨S3, .f32⟩
  | 12 => ⟨S20000x2048, .f32⟩
  | 13 => ⟨S1x2048, .f32⟩
  | 14 => ⟨S20000x2048, .f32⟩
  | 15 => ⟨S20000x2048, .f32⟩
  | 16 => ⟨S_, .f32⟩
  | 17 => ⟨S_, .f32⟩
  | 18 => ⟨S_, .f32⟩
  | 19 => ⟨S_, .f32⟩
  | 20 => ⟨S1, .f32⟩
  | 21 => ⟨S3, .f32⟩
  | 22 => ⟨S3, .f32⟩
  | 23 => ⟨S3, .f32⟩
  | 24 => ⟨S_, .f32⟩
  | 25 => ⟨S_, .f32⟩
  | 26 => ⟨S1, .f32⟩
  | 27 => ⟨S3, .f32⟩
  | 28 => ⟨S3, .f32⟩
  | 29 => ⟨S_, .f32⟩
  | 30 => ⟨S20000x2048, .f32⟩
  | 31 => ⟨S1x100000, .i32⟩
  | 32 => ⟨S100000, .i32⟩
  | 33 => ⟨S_, .f32⟩
  | 34 => ⟨S100000, .f32⟩
  | 35 => ⟨S_, .f32⟩
  | 36 => ⟨S20000, .f32⟩
  | 37 => ⟨S100000x1, .i32⟩
  | 38 => ⟨S20000, .f32⟩
  | 39 => ⟨S_, .f32⟩
  | 40 => ⟨S20000, .f32⟩
  | 41 => ⟨S20000, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000, .f32⟩
  | 51 => ⟨S_, .f32⟩
  | 52 => ⟨S100000, .f32⟩
  | 53 => ⟨S100000, .f32⟩
  | 54 => ⟨S1x100000, .i32⟩
  | 55 => ⟨S100000, .i32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000x2048, .f32⟩
  | 65 => ⟨S100000x1, .f32⟩
  | 66 => ⟨S100000x2048, .f32⟩
  | 67 => ⟨S100000x2048, .f32⟩
  | 68 => ⟨S1x100000, .i32⟩
  | 69 => ⟨S100000, .i32⟩
  | 70 => ⟨S_, .f32⟩
  | 71 => ⟨S20000x2048, .f32⟩
  | 72 => ⟨S100000x1, .i32⟩
  | 73 => ⟨S20000x2048, .f32⟩
  | 74 => ⟨S1, .f32⟩
  | 75 => ⟨S_, .f32⟩
  | 76 => ⟨S20000x2048, .f32⟩
  | 77 => ⟨S20000x2048, .f32⟩
  | 78 => ⟨S20000x2048, .f32⟩
  | 79 => ⟨S1x100000, .i32⟩
  | 80 => ⟨S100000, .i32⟩
  | 81 => ⟨S_, .f32⟩
  | 82 => ⟨S100000, .f32⟩
  | 83 => ⟨S_, .f32⟩
  | 84 => ⟨S20000, .f32⟩
  | 85 => ⟨S100000x1, .i32⟩
  | 86 => ⟨S20000, .f32⟩
  | 87 => ⟨S_, .f32⟩
  | 88 => ⟨S20000, .f32⟩
  | 89 => ⟨S20000, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000, .f32⟩
  | 99 => ⟨S_, .f32⟩
  | 100 => ⟨S100000, .f32⟩
  | 101 => ⟨S100000, .f32⟩
  | 102 => ⟨S1x100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x2048, .f32⟩
  | 113 => ⟨S100000x1, .f32⟩
  | 114 => ⟨S100000x2048, .f32⟩
  | 115 => ⟨S100000x2048, .f32⟩
  | 116 => ⟨S1x100000, .i32⟩
  | 117 => ⟨S100000, .i32⟩
  | 118 => ⟨S_, .f32⟩
  | 119 => ⟨S20000x2048, .f32⟩
  | 120 => ⟨S100000x1, .i32⟩
  | 121 => ⟨S20000x2048, .f32⟩
  | 122 => ⟨S1, .f32⟩
  | 123 => ⟨S_, .f32⟩
  | 124 => ⟨S20000x2048, .f32⟩
  | 125 => ⟨S20000x2048, .f32⟩
  | 126 => ⟨S20000x2048, .f32⟩
  | 127 => ⟨S1x100000, .i32⟩
  | _ => ⟨S20000x1024, .f32⟩

abbrev hbmTy0_1 (i : Nat) : BufTy := match i % 128 with
  | 0 => ⟨S100000, .i32⟩
  | 1 => ⟨S_, .f32⟩
  | 2 => ⟨S100000, .f32⟩
  | 3 => ⟨S_, .f32⟩
  | 4 => ⟨S20000, .f32⟩
  | 5 => ⟨S100000x1, .i32⟩
  | 6 => ⟨S20000, .f32⟩
  | 7 => ⟨S_, .f32⟩
  | 8 => ⟨S20000, .f32⟩
  | 9 => ⟨S20000, .f32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000, .f32⟩
  | 19 => ⟨S_, .f32⟩
  | 20 => ⟨S100000, .f32⟩
  | 21 => ⟨S100000, .f32⟩
  | 22 => ⟨S1x100000, .i32⟩
  | 23 => ⟨S100000, .i32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x2048, .f32⟩
  | 33 => ⟨S100000x1, .f32⟩
  | 34 => ⟨S100000x2048, .f32⟩
  | 35 => ⟨S100000x2048, .f32⟩
  | 36 => ⟨S1x100000, .i32⟩
  | 37 => ⟨S100000, .i32⟩
  | 38 => ⟨S_, .f32⟩
  | 39 => ⟨S20000x2048, .f32⟩
  | 40 => ⟨S100000x1, .i32⟩
  | 41 => ⟨S20000x2048, .f32⟩
  | 42 => ⟨S1, .f32⟩
  | 43 => ⟨S_, .f32⟩
  | 44 => ⟨S20000x2048, .f32⟩
  | 45 => ⟨S20000x2048, .f32⟩
  | 46 => ⟨S20000x2048, .f32⟩
  | 47 => ⟨S_, .f32⟩
  | 48 => ⟨S20000x2048, .f32⟩
  | 49 => ⟨S20000x2048, .i1⟩
  | 50 => ⟨S_, .f32⟩
  | 51 => ⟨S20000x2048, .f32⟩
  | 52 => ⟨S20000x2048, .f32⟩
  | 53 => ⟨S20000x2048, .f32⟩
  | 54 => ⟨S1x3, .f32⟩
  | 55 => ⟨S3, .f32⟩
  | 56 => ⟨S20000x512, .f32⟩
  | 57 => ⟨S1x512, .f32⟩
  | 58 => ⟨S20000x512, .f32⟩
  | 59 => ⟨S20000x512, .f32⟩
  | 60 => ⟨S_, .f32⟩
  | 61 => ⟨S_, .f32⟩
  | 62 => ⟨S_, .f32⟩
  | 63 => ⟨S_, .f32⟩
  | 64 => ⟨S1, .f32⟩
  | 65 => ⟨S3, .f32⟩
  | 66 => ⟨S3, .f32⟩
  | 67 => ⟨S3, .f32⟩
  | 68 => ⟨S_, .f32⟩
  | 69 => ⟨S_, .f32⟩
  | 70 => ⟨S1, .f32⟩
  | 71 => ⟨S3, .f32⟩
  | 72 => ⟨S3, .f32⟩
  | 73 => ⟨S_, .f32⟩
  | 74 => ⟨S20000x512, .f32⟩
  | 75 => ⟨S1x100000, .i32⟩
  | 76 => ⟨S100000, .i32⟩
  | 77 => ⟨S_, .f32⟩
  | 78 => ⟨S100000, .f32⟩
  | 79 => ⟨S_, .f32⟩
  | 80 => ⟨S20000, .f32⟩
  | 81 => ⟨S100000x1, .i32⟩
  | 82 => ⟨S20000, .f32⟩
  | 83 => ⟨S_, .f32⟩
  | 84 => ⟨S20000, .f32⟩
  | 85 => ⟨S20000, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000, .f32⟩
  | 95 => ⟨S_, .f32⟩
  | 96 => ⟨S100000, .f32⟩
  | 97 => ⟨S100000, .f32⟩
  | 98 => ⟨S1x100000, .i32⟩
  | 99 => ⟨S100000, .i32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x512, .f32⟩
  | 109 => ⟨S100000x1, .f32⟩
  | 110 => ⟨S100000x512, .f32⟩
  | 111 => ⟨S100000x512, .f32⟩
  | 112 => ⟨S1x100000, .i32⟩
  | 113 => ⟨S100000, .i32⟩
  | 114 => ⟨S_, .f32⟩
  | 115 => ⟨S20000x512, .f32⟩
  | 116 => ⟨S100000x1, .i32⟩
  | 117 => ⟨S20000x512, .f32⟩
  | 118 => ⟨S1, .f32⟩
  | 119 => ⟨S_, .f32⟩
  | 120 => ⟨S20000x512, .f32⟩
  | 121 => ⟨S20000x512, .f32⟩
  | 122 => ⟨S20000x512, .f32⟩
  | 123 => ⟨S1x100000, .i32⟩
  | 124 => ⟨S100000, .i32⟩
  | 125 => ⟨S_, .f32⟩
  | 126 => ⟨S100000, .f32⟩
  | 127 => ⟨S_, .f32⟩
  | _ => ⟨S20000x1024, .f32⟩

abbrev hbmTy0_2 (i : Nat) : BufTy := match i % 128 with
  | 0 => ⟨S20000, .f32⟩
  | 1 => ⟨S100000x1, .i32⟩
  | 2 => ⟨S20000, .f32⟩
  | 3 => ⟨S_, .f32⟩
  | 4 => ⟨S20000, .f32⟩
  | 5 => ⟨S20000, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000, .f32⟩
  | 15 => ⟨S_, .f32⟩
  | 16 => ⟨S100000, .f32⟩
  | 17 => ⟨S100000, .f32⟩
  | 18 => ⟨S1x100000, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S100000x512, .f32⟩
  | 29 => ⟨S100000x1, .f32⟩
  | 30 => ⟨S100000x512, .f32⟩
  | 31 => ⟨S100000x512, .f32⟩
  | 32 => ⟨S1x100000, .i32⟩
  | 33 => ⟨S100000, .i32⟩
  | 34 => ⟨S_, .f32⟩
  | 35 => ⟨S20000x512, .f32⟩
  | 36 => ⟨S100000x1, .i32⟩
  | 37 => ⟨S20000x512, .f32⟩
  | 38 => ⟨S1, .f32⟩
  | 39 => ⟨S_, .f32⟩
  | 40 => ⟨S20000x512, .f32⟩
  | 41 => ⟨S20000x512, .f32⟩
  | 42 => ⟨S20000x512, .f32⟩
  | 43 => ⟨S1x100000, .i32⟩
  | 44 => ⟨S100000, .i32⟩
  | 45 => ⟨S_, .f32⟩
  | 46 => ⟨S100000, .f32⟩
  | 47 => ⟨S_, .f32⟩
  | 48 => ⟨S20000, .f32⟩
  | 49 => ⟨S100000x1, .i32⟩
  | 50 => ⟨S20000, .f32⟩
  | 51 => ⟨S_, .f32⟩
  | 52 => ⟨S20000, .f32⟩
  | 53 => ⟨S20000, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000, .f32⟩
  | 63 => ⟨S_, .f32⟩
  | 64 => ⟨S100000, .f32⟩
  | 65 => ⟨S100000, .f32⟩
  | 66 => ⟨S1x100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x512, .f32⟩
  | 77 => ⟨S100000x1, .f32⟩
  | 78 => ⟨S100000x512, .f32⟩
  | 79 => ⟨S100000x512, .f32⟩
  | 80 => ⟨S1x100000, .i32⟩
  | 81 => ⟨S100000, .i32⟩
  | 82 => ⟨S_, .f32⟩
  | 83 => ⟨S20000x512, .f32⟩
  | 84 => ⟨S100000x1, .i32⟩
  | 85 => ⟨S20000x512, .f32⟩
  | 86 => ⟨S1, .f32⟩
  | 87 => ⟨S_, .f32⟩
  | 88 => ⟨S20000x512, .f32⟩
  | 89 => ⟨S20000x512, .f32⟩
  | 90 => ⟨S20000x512, .f32⟩
  | 91 => ⟨S20000x512, .f32⟩
  | 92 => ⟨S_, .f32⟩
  | 93 => ⟨S20000, .f32⟩
  | 94 => ⟨S20000x1, .f32⟩
  | 95 => ⟨S20000x1, .f32⟩
  | 96 => ⟨S_, .f32⟩
  | 97 => ⟨S20000x1, .f32⟩
  | 98 => ⟨S20000x1, .f32⟩
  | 99 => ⟨S20000x512, .f32⟩
  | 100 => ⟨S20000x512, .f32⟩
  | _ => ⟨S20000x1024, .f32⟩

abbrev hbmTy (i : Nat) : BufTy := match i / 128 with
  | 0 => hbmTy0_0 i
  | 1 => hbmTy0_1 i
  | 2 => hbmTy0_2 i
  | _ => ⟨S20000x1024, .f32⟩

abbrev bufTy : (tb : Table) → Fin (tcTables nBuf tb) → BufTy
  | .hbm, ⟨i, _⟩ => hbmTy i
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_20 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_c_23 : Ref sig .tc := ⟨.hbm, 138, rfl⟩
abbrev main_v103 : Ref sig .tc := ⟨.hbm, 139, rfl⟩
abbrev main_v104 : Ref sig .tc := ⟨.hbm, 140, rfl⟩
abbrev main_c_24 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_26 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_28 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_29 : Ref sig .tc := ⟨.hbm, 175, rfl⟩
abbrev main_v134 : Ref sig .tc := ⟨.hbm, 176, rfl⟩
abbrev main_v135 : Ref sig .tc := ⟨.hbm, 177, rfl⟩
abbrev main_cst_30 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_cst_32 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_33 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_34 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_35 : Ref sig .tc := ⟨.hbm, 205, rfl⟩
abbrev main_v158 : Ref sig .tc := ⟨.hbm, 206, rfl⟩
abbrev main_cst_36 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_37 : Ref sig .tc := ⟨.hbm, 211, rfl⟩
abbrev main_v162 : Ref sig .tc := ⟨.hbm, 212, rfl⟩
abbrev main_v163 : Ref sig .tc := ⟨.hbm, 213, rfl⟩
abbrev main_c_38 : Ref sig .tc := ⟨.hbm, 214, rfl⟩
abbrev main_v164 : Ref sig .tc := ⟨.hbm, 215, rfl⟩
abbrev main_v165 : Ref sig .tc := ⟨.hbm, 216, rfl⟩
abbrev main_c_39 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_40 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_c_41 : Ref sig .tc := ⟨.hbm, 228, rfl⟩
abbrev main_v175 : Ref sig .tc := ⟨.hbm, 229, rfl⟩
abbrev main_v176 : Ref sig .tc := ⟨.hbm, 230, rfl⟩
abbrev main_c_42 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_43 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_cst_44 : Ref sig .tc := ⟨.hbm, 253, rfl⟩
abbrev main_v197 : Ref sig .tc := ⟨.hbm, 254, rfl⟩
abbrev main_cst_45 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_46 : Ref sig .tc := ⟨.hbm, 259, rfl⟩
abbrev main_v201 : Ref sig .tc := ⟨.hbm, 260, rfl⟩
abbrev main_v202 : Ref sig .tc := ⟨.hbm, 261, rfl⟩
abbrev main_c_47 : Ref sig .tc := ⟨.hbm, 262, rfl⟩
abbrev main_v203 : Ref sig .tc := ⟨.hbm, 263, rfl⟩
abbrev main_v204 : Ref sig .tc := ⟨.hbm, 264, rfl⟩
abbrev main_c_48 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_cst_49 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_c_50 : Ref sig .tc := ⟨.hbm, 276, rfl⟩
abbrev main_v214 : Ref sig .tc := ⟨.hbm, 277, rfl⟩
abbrev main_v215 : Ref sig .tc := ⟨.hbm, 278, rfl⟩
abbrev main_c_51 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_cst_52 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_cst_53 : Ref sig .tc := ⟨.hbm, 301, rfl⟩
abbrev main_v236 : Ref sig .tc := ⟨.hbm, 302, rfl⟩
abbrev main_cst_54 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_55 : Ref sig .tc := ⟨.hbm, 307, rfl⟩
abbrev main_v240 : Ref sig .tc := ⟨.hbm, 308, rfl⟩
abbrev main_v241 : Ref sig .tc := ⟨.hbm, 309, rfl⟩
abbrev main_c_56 : Ref sig .tc := ⟨.hbm, 310, rfl⟩
abbrev main_v242 : Ref sig .tc := ⟨.hbm, 311, rfl⟩
abbrev main_v243 : Ref sig .tc := ⟨.hbm, 312, rfl⟩
abbrev main_c_57 : Ref sig .tc := ⟨.hbm, 313, rfl⟩
abbrev main_v244 : Ref sig .tc := ⟨.hbm, 314, rfl⟩
abbrev main_v245 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_58 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_c_59 : Ref sig .tc := ⟨.hbm, 324, rfl⟩
abbrev main_v253 : Ref sig .tc := ⟨.hbm, 325, rfl⟩
abbrev main_v254 : Ref sig .tc := ⟨.hbm, 326, rfl⟩
abbrev main_c_60 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_cst_61 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_cst_62 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_cst_63 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩

abbrev nD : Nat := 1
abbrev τ : Topo := Topo.v7x

variable {F : FTy → Type} [FloatOps F]

class Facts₀ : Prop where
  slices_S2x3_S1x3_0_0 : S2x3.Slices ![0, 0] S1x3
  shapeCasts_S1x3_S3 : S1x3.ShapeCasts S3
  bcast_S2048_S1x2048_1 : S2048.BroadcastsInDim S1x2048 (![1] : Fin 1 → Fin S1x2048.rank)
  bcast_S1x2048_S20000x2048_0_1 : S1x2048.BroadcastsInDim S20000x2048 (![0, 1] : Fin 2 → Fin S20000x2048.rank)
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S_S20000x2048 : S_.BroadcastsInDim S20000x2048 (![] : Fin 0 → Fin S20000x2048.rank)
  slices_S3x100000_S1x100000_0_0 : S3x100000.Slices ![0, 0] S1x100000
  shapeCasts_S1x100000_S100000 : S1x100000.ShapeCasts S100000
  bcast_S_S100000 : S_.BroadcastsInDim S100000 (![] : Fin 0 → Fin S100000.rank)
  bcast_S_S20000 : S_.BroadcastsInDim S20000 (![] : Fin 0 → Fin S20000.rank)
  bcast_S100000_S100000x1_0 : S100000.BroadcastsInDim S100000x1 (![0] : Fin 1 → Fin S100000x1.rank)
  bcast_S100000x1_S100000x2048_0_1 : S100000x1.BroadcastsInDim S100000x2048 (![0, 1] : Fin 2 → Fin S100000x2048.rank)
  slices_S3_S1_0 : S3.Slices ![0] S1
  shapeCasts_S1_S_ : S1.ShapeCasts S_
  slices_S3x100000_S1x100000_1_0 : S3x100000.Slices ![1, 0] S1x100000
  slices_S3_S1_1 : S3.Slices ![1] S1
  slices_S3x100000_S1x100000_2_0 : S3x100000.Slices ![2, 0] S1x100000
  slices_S3_S1_2 : S3.Slices ![2] S1
  slices_S2x3_S1x3_1_0 : S2x3.Slices ![1, 0] S1x3
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S100000x1_S100000x512_0_1 : S100000x1.BroadcastsInDim S100000x512 (![0, 1] : Fin 2 → Fin S100000x512.rank)
  reducesTo_S20000x512_S20000_d1 : S20000x512.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  dot_S20000x1024_S1024x2048_S20000x2048_1_0_0_1_n_n_wf : DotDims.WF S20000x1024 S1024x2048 S20000x2048 [1] [0] [0] [1] [] []
  scatter_S20000_S100000x1_S100000_n_0_0_1_wf : ScatterDims.WF S20000 S100000x1 S100000 [] [0] [0] 1
  gather_S20000_S100000x1_S100000_n_0_n_n_0_1_1_wf : GatherDims.WF S20000 S100000x1 S100000 [] [0] [] [0] [] 1 ![1]
  gather_S20000x2048_S100000x1_S100000x2048_1_0_n_n_0_1_12048_wf : GatherDims.WF S20000x2048 S100000x1 S100000x2048 [1] [0] [] [0] [] 1 ![1, 2048]
  scatter_S20000x2048_S100000x1_S100000x2048_1_0_0_1_wf : ScatterDims.WF S20000x2048 S100000x1 S100000x2048 [1] [0] [0] 1
  dot_S20000x2048_S2048x512_S20000x512_1_0_0_1_n_n_wf : DotDims.WF S20000x2048 S2048x512 S20000x512 [1] [0] [0] [1] [] []
  gather_S20000x512_S100000x1_S100000x512_1_0_n_n_0_1_1512_wf : GatherDims.WF S20000x512 S100000x1 S100000x512 [1] [0] [] [0] [] 1 ![1, 512]
  scatter_S20000x512_S100000x1_S100000x512_1_0_0_1_wf : ScatterDims.WF S20000x512 S100000x1 S100000x512 [1] [0] [0] 1

variable [Facts₀]

def dot_S20000x1024_S1024x2048_S20000x2048_1_0_0_1_n_n : DotDims S20000x1024 S1024x2048 S20000x2048 where
  lhsContracting := [1]
  rhsContracting := [0]
  lhsNonContracting := [0]
  rhsNonContracting := [1]
  lhsBatch := []
  rhsBatch := []
  wf := dot_S20000x1024_S1024x2048_S20000x2048_1_0_0_1_n_n_wf
def scatter_S20000_S100000x1_S100000_n_0_0_1 : ScatterDims S20000 S100000x1 S100000 where
  updateWindowDims := []
  insertedWindowDims := [0]
  scatterDimsToOperandDims := [0]
  indexVectorDim := 1
  wf := scatter_S20000_S100000x1_S100000_n_0_0_1_wf
def gather_S20000_S100000x1_S100000_n_0_n_n_0_1_1 : GatherDims S20000 S100000x1 S100000 where
  offsetDims := []
  collapsedSliceDims := [0]
  operandBatchingDims := []
  startIndicesBatchingDims := []
  startIndexMap := [0]
  indexVectorDim := 1
  sliceSizes := ![1]
  wf := gather_S20000_S100000x1_S100000_n_0_n_n_0_1_1_wf
def gather_S20000x2048_S100000x1_S100000x2048_1_0_n_n_0_1_12048 : GatherDims S20000x2048 S100000x1 S100000x2048 where
  offsetDims := [1]
  collapsedSliceDims := [0]
  operandBatchingDims := []
  startIndicesBatchingDims := []
  startIndexMap := [0]
  indexVectorDim := 1
  sliceSizes := ![1, 2048]
  wf := gather_S20000x2048_S100000x1_S100000x2048_1_0_n_n_0_1_12048_wf
def scatter_S20000x2048_S100000x1_S100000x2048_1_0_0_1 : ScatterDims S20000x2048 S100000x1 S100000x2048 where
  updateWindowDims := [1]
  insertedWindowDims := [0]
  scatterDimsToOperandDims := [0]
  indexVectorDim := 1
  wf := scatter_S20000x2048_S100000x1_S100000x2048_1_0_0_1_wf
def dot_S20000x2048_S2048x512_S20000x512_1_0_0_1_n_n : DotDims S20000x2048 S2048x512 S20000x512 where
  lhsContracting := [1]
  rhsContracting := [0]
  lhsNonContracting := [0]
  rhsNonContracting := [1]
  lhsBatch := []
  rhsBatch := []
  wf := dot_S20000x2048_S2048x512_S20000x512_1_0_0_1_n_n_wf
def gather_S20000x512_S100000x1_S100000x512_1_0_n_n_0_1_1512 : GatherDims S20000x512 S100000x1 S100000x512 where
  offsetDims := [1]
  collapsedSliceDims := [0]
  operandBatchingDims := []
  startIndicesBatchingDims := []
  startIndexMap := [0]
  indexVectorDim := 1
  sliceSizes := ![1, 512]
  wf := gather_S20000x512_S100000x1_S100000x512_1_0_n_n_0_1_1512_wf
def scatter_S20000x512_S100000x1_S100000x512_1_0_0_1 : ScatterDims S20000x512 S100000x1 S100000x512 where
  updateWindowDims := [1]
  insertedWindowDims := [0]
  scatterDimsToOperandDims := [0]
  indexVectorDim := 1
  wf := scatter_S20000x512_S100000x1_S100000x512_1_0_0_1_wf

class Facts : Prop extends Facts₀ where

variable [Facts]
-- ==== Proof.KernelRun.lean ====
/-
  The idealized kernel program's run, with its result named.

  The program is three pipelined regions among stretches of host operations. Running the segments in order from the
  launch memory, every buffer that is not scoped to a region ends at the last boundary's contents: the fold of the host
  stretches and of the three regions' write-backs over the launch memory. Read at the result buffer this says what the
  program returns; read at an argument it says the argument is unchanged.
-/
import proofs.«109458_j5609227288944_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer then holds the
    last boundary's contents (the third region's write-backs over what the host stretches and the first two regions
    left), and every argument is as launched. -/
theorem run_result : θ_run defs (onTc (τ := τ) (main (F := F))) ⟨m, fun _ => 0, ρ⟩ (fun r => ∀ c : Dev nD,
      r.2.mem ((c.tc : Thread nD τ).loc main_v273) = W8 m ρ c (Proc.devRef .tc main_v273)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v273 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Whole

end
-- ==== Proof.HostChain1.lean ====
/-
  The host operations between the first and the second matrix product.

  Both programs apply the same operations to the first product's value: the attention weights' softmax, per relation
  the in-degree normalisation, the gather of the product's rows by the edges' sources, the scaling and the
  scatter-add into the edges' targets, the weighted sum over the three relations, and the leaky rectifier. So if the
  buffers this stretch reads hold the reference's values — the first product, the first row of the attention table,
  the edge lists — then the buffer it leaves for the second product holds the reference's next stage, rounded to the
  narrow format (which is the identity on the extended reals). The same holds, trivially, for the three small buffers
  the stretch prepares beside it: the second row of the attention table, the second weight matrix narrowed, the
  second bias as a row.
-/
import proofs.«109458_j5609227288944_1_alg».proof.Proof.Gen.KernelIdeal.Frame
import proofs.«109458_j5609227288944_1_alg».proof.Proof.RefRead
import Idealize.ShloMosaic.Lib.StableHlo.Run
import Idealize.ShloMosaic.PureOps.Ideal

set_option maxRecDepth 16384

noncomputable section

namespace Cert.KernelIdeal.Whole

open Cert.KernelIdeal Cert.KernelIdeal.Gen Cert.ReferenceIdeal.Read
open Idealize.ShloMosaic Idealize.ShloMosaic.TcCoe Idealize.SL.Sem Idealize.ShloMosaic.StableHlo

variable (Wv : Valuation τ sig (Elt Ideal))

set_option maxRecDepth 400000 in
set_option maxHeartbeats 400000000 in
/-- What the stretch leaves for the second product's left operand: the reference's layer-one output, narrowed. -/
theorem chain1_v141 (x0 : (⟨Cert.ReferenceIdeal.S20000x1024, .f32⟩ : BufTy).Contents (Elt Ideal)) (x1 x2 : (⟨Cert.ReferenceIdeal.S3x100000, .i32⟩ : BufTy).Contents (Elt Ideal)) (x5 : (⟨Cert.ReferenceIdeal.S2x3, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal))
    (hv5 : Wv (Proc.devRef .tc main_v5) = val_main_v5 (F := Ideal) x0 x6 x7)
    (hv1 : Wv (Proc.devRef .tc main_v1) = val_main_v1 (F := Ideal) x5)
    (ha1 : Wv (Proc.devRef .tc main_arg1) = x1) (ha2 : Wv (Proc.devRef .tc main_arg2) = x2) :
    StableHlo.after hostOps1_2 (StableHlo.after hostOps1_1 (StableHlo.after hostOps1 Wv)) (Proc.devRef .tc main_v141)
      = truncf (F := Ideal) (s := S20000x2048) (φ := .f32) .bf16 (val_main_v138 (F := Ideal) x0 x1 x2 x5 x6 x7) Facts₀.bitsLt_bf16_f32 := by
  after_results_simp
  simp only [TRef.toBuf, TRef.ofBuf, cast_eq]
  simp only [hv5, hv1, ha1, ha2]
  simp only [val_main_v138, val_main_v137, val_main_v136, val_main_cst_30, val_main_v135, val_main_v134, val_main_cst_29, val_main_v133, val_main_v132, val_main_v131, val_main_v130, val_main_v129, val_main_v128, val_main_v127, val_main_v126, val_main_cst_28, val_main_v125, val_main_v124, val_main_v123, val_main_v122, val_main_v121, val_main_v120, val_main_v119, val_main_v118, val_main_v117, val_main_v116, val_main_c_27, val_main_v115, val_main_v114, val_main_c_26, val_main_v113, val_main_v112, val_main_v111, val_main_v110, val_main_cst_25, val_main_v109, val_main_v108, val_main_v107, val_main_v106, val_main_v105, val_main_c_24, val_main_v104, val_main_v103, val_main_c_23, val_main_v102, val_main_v101, val_main_cst_22, val_main_v100, val_main_v99, val_main_v98, val_main_cst_21, val_main_v97, val_main_cst_20, val_main_v96, val_main_v95, val_main_v94, val_main_v93, val_main_v92, val_main_v91, val_main_v90, val_main_v89, val_main_v88, val_main_v87, val_main_cst_19, val_main_v86, val_main_v85, val_main_v84, val_main_v83, val_main_v82, val_main_v81, val_main_v80, val_main_v79, val_main_v78, val_main_v77, val_main_c_18, val_main_v76, val_main_v75, val_main_c_17, val_main_v74, val_main_v73, val_main_v72, val_main_v71, val_main_cst_16, val_main_v70, val_main_v69, val_main_v68, val_main_v67, val_main_v66, val_main_c_15, val_main_v65, val_main_v64, val_main_c_14, val_main_v63, val_main_v62, val_main_cst_13, val_main_v61, val_main_v60, val_main_v59, val_main_cst_12, val_main_v58, val_main_cst_11, val_main_v57, val_main_v56, val_main_v55, val_main_v54, val_main_v53, val_main_v52, val_main_v51, val_main_v50, val_main_v49, val_main_v48, val_main_cst_10, val_main_v47, val_main_v46, val_main_v45, val_main_v44, val_main_v43, val_main_v42, val_main_v41, val_main_v40, val_main_v39, val_main_v38, val_main_c_9, val_main_v37, val_main_v36, val_main_c_8, val_main_v35, val_main_v34, val_main_v33, val_main_v32, val_main_cst_7, val_main_v31, val_main_v30, val_main_v29, val_main_v28, val_main_v27, val_main_c_6, val_main_v26, val_main_v25, val_main_c, val_main_v24, val_main_v23, val_main_cst_5, val_main_v22, val_main_v21, val_main_v20, val_main_cst_4, val_main_v19, val_main_cst_3, val_main_v18, val_main_v17, val_main_v16, val_main_cst_2, val_main_v15, val_main_v14, val_main_v13, val_main_v12, val_main_cst_1, val_main_v11, val_main_v10, val_main_v9, val_main_v8, val_main_v7, val_main_cst_0, val_main_v6, val_main_cst]
  first | rfl | done

set_option maxHeartbeats 400000000 in
/-- The second row of the attention table, as a vector. -/
theorem chain1_v140 (x5 : (⟨Cert.ReferenceIdeal.S2x3, .f32⟩ : BufTy).Contents (Elt Ideal)) (ha5 : Wv (Proc.devRef .tc main_arg5) = x5) :
    StableHlo.after hostOps1_2 (StableHlo.after hostOps1_1 (StableHlo.after hostOps1 Wv)) (Proc.devRef .tc main_v140)
      = val_main_v140 (F := Ideal) x5 := by
  after_results_simp
  simp only [ha5]
  simp only [val_main_v140, val_main_v139]
  first | rfl | done

set_option maxHeartbeats 400000000 in
/-- The second weight matrix, narrowed. -/
theorem chain1_v142 (x8 : (⟨Cert.ReferenceIdeal.S2048x512, .f32⟩ : BufTy).Contents (Elt Ideal)) (ha8 : Wv (Proc.devRef .tc main_arg8) = x8) :
    StableHlo.after hostOps1_2 (StableHlo.after hostOps1_1 (StableHlo.after hostOps1 Wv)) (Proc.devRef .tc main_v142)
      = truncf (F := Ideal) (s := S2048x512) (φ := .f32) .bf16 x8 Facts₀.bitsLt_bf16_f32 := by
  after_results_simp
  simp only [ha8]
  first | rfl | done

set_option maxHeartbeats 400000000 in
/-- The second bias, as a row. -/
theorem chain1_v143 (x9 : (⟨Cert.ReferenceIdeal.S512, .f32⟩ : BufTy).Contents (Elt Ideal)) (ha9 : Wv (Proc.devRef .tc main_arg9) = x9) :
    StableHlo.after hostOps1_2 (StableHlo.after hostOps1_1 (StableHlo.after hostOps1 Wv)) (Proc.devRef .tc main_v143)
      = shapeCast S1x512 x9 Facts₀.shapeCasts_S512_S1x512 := by
  after_results_simp
  simp only [ha9]
  first | rfl | done

end Cert.KernelIdeal.Whole

end
-- ==== Proof.HostChain2.lean ====
/-
  The host operations between the second matrix product and the row normalisation.

  Both programs apply the same operations to the second product's value: the softmax of the attention table's second
  row, per relation the in-degree normalisation, the gather of the product's rows by the edges' sources, the scaling
  and the scatter-add into the edges' targets, and the weighted sum over the three relations. So if the buffers this
  stretch reads hold the reference's values — the second product, the second row of the attention table, the edge
  lists — then the buffer it leaves for the normalisation holds the reference's layer-two output.
-/
import proofs.«109458_j5609227288944_1_alg».proof.Proof.Gen.KernelIdeal.Frame
import proofs.«109458_j5609227288944_1_alg».proof.Proof.RefRead
import Idealize.ShloMosaic.Lib.StableHlo.Run
import Idealize.ShloMosaic.PureOps.Ideal

set_option maxRecDepth 16384

noncomputable section

namespace Cert.KernelIdeal.Whole

open Cert.KernelIdeal Cert.KernelIdeal.Gen Cert.ReferenceIdeal.Read
open Idealize.ShloMosaic Idealize.ShloMosaic.TcCoe Idealize.SL.Sem Idealize.ShloMosaic.StableHlo

variable (Wv : Valuation τ sig (Elt Ideal))

set_option maxHeartbeats 400000000 in
/-- What the stretch leaves for the normalisation: the reference's layer-two output. -/
theorem chain2_v272 (x0 : (⟨Cert.ReferenceIdeal.S20000x1024, .f32⟩ : BufTy).Contents (Elt Ideal)) (x1 x2 x3 x4 : (⟨Cert.ReferenceIdeal.S3x100000, .i32⟩ : BufTy).Contents (Elt Ideal)) (x5 : (⟨Cert.ReferenceIdeal.S2x3, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal)) (x8 : (⟨Cert.ReferenceIdeal.S2048x512, .f32⟩ : BufTy).Contents (Elt Ideal)) (x9 : (⟨Cert.ReferenceIdeal.S512, .f32⟩ : BufTy).Contents (Elt Ideal))
    (hv144 : Wv (Proc.devRef .tc main_v144) = val_main_v144 (F := Ideal) x0 x1 x2 x5 x6 x7 x8 x9)
    (hv140 : Wv (Proc.devRef .tc main_v140) = val_main_v140 (F := Ideal) x5)
    (ha3 : Wv (Proc.devRef .tc main_arg3) = x3) (ha4 : Wv (Proc.devRef .tc main_arg4) = x4) :
    StableHlo.after hostOps2 Wv (Proc.devRef .tc main_v272)
      = val_main_v272 (F := Ideal) x0 x1 x2 x3 x4 x5 x6 x7 x8 x9 := by
  after_results_simp
  simp only [hv144, hv140, ha3, ha4]
  simp only [val_main_v272, val_main_v271, val_main_v270, val_main_v269, val_main_v268, val_main_v267, val_main_v266, val_main_v265, val_main_cst_61, val_main_v264, val_main_v263, val_main_v262, val_main_v261, val_main_v260, val_main_v259, val_main_v258, val_main_v257, val_main_v256, val_main_v255, val_main_c_60, val_main_v254, val_main_v253, val_main_c_59, val_main_v252, val_main_v251, val_main_v250, val_main_v249, val_main_cst_58, val_main_v248, val_main_v247, val_main_v246, val_main_v245, val_main_v244, val_main_c_57, val_main_v243, val_main_v242, val_main_c_56, val_main_v241, val_main_v240, val_main_cst_55, val_main_v239, val_main_v238, val_main_v237, val_main_cst_54, val_main_v236, val_main_cst_53, val_main_v235, val_main_v234, val_main_v233, val_main_v232, val_main_v231, val_main_v230, val_main_v229, val_main_v228, val_main_v227, val_main_v226, val_main_cst_52, val_main_v225, val_main_v224, val_main_v223, val_main_v222, val_main_v221, val_main_v220, val_main_v219, val_main_v218, val_main_v217, val_main_v216, val_main_c_51, val_main_v215, val_main_v214, val_main_c_50, val_main_v213, val_main_v212, val_main_v211, val_main_v210, val_main_cst_49, val_main_v209, val_main_v208, val_main_v207, val_main_v206, val_main_v205, val_main_c_48, val_main_v204, val_main_v203, val_main_c_47, val_main_v202, val_main_v201, val_main_cst_46, val_main_v200, val_main_v199, val_main_v198, val_main_cst_45, val_main_v197, val_main_cst_44, val_main_v196, val_main_v195, val_main_v194, val_main_v193, val_main_v192, val_main_v191, val_main_v190, val_main_v189, val_main_v188, val_main_v187, val_main_cst_43, val_main_v186, val_main_v185, val_main_v184, val_main_v183, val_main_v182, val_main_v181, val_main_v180, val_main_v179, val_main_v178, val_main_v177, val_main_c_42, val_main_v176, val_main_v175, val_main_c_41, val_main_v174, val_main_v173, val_main_v172, val_main_v171, val_main_cst_40, val_main_v170, val_main_v169, val_main_v168, val_main_v167, val_main_v166, val_main_c_39, val_main_v165, val_main_v164, val_main_c_38, val_main_v163, val_main_v162, val_main_cst_37, val_main_v161, val_main_v160, val_main_v159, val_main_cst_36, val_main_v158, val_main_cst_35, val_main_v157, val_main_v156, val_main_v155, val_main_cst_34, val_main_v154, val_main_v153, val_main_v152, val_main_v151, val_main_cst_33, val_main_v150, val_main_v149, val_main_v148, val_main_v147, val_main_v146, val_main_cst_32, val_main_v145, val_main_cst_31]
  rfl

end Cert.KernelIdeal.Whole

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.RegionMatmul0.lean ====
/-
  The first matrix product of the kernel program, read as one array.

  The region walks twenty blocks of a thousand rows. At each block it multiplies the block of the left matrix by the
  whole right matrix, accumulating into zero, and adds the bias row to every row of the product. So the array it leaves
  holds, at row `r` and column `q`, `∑ k, A (r, k) · B (k, q) + b (0, q)`, where `A`, `B`, `b` are the arrays the
  region finds (`G0`; `arr0_eq`). When those are the reference's arguments — the two matrices rounded to the operand
  type, which on the extended reals changes nothing, and the bias vector viewed as a one-row matrix — that function is
  the reference's product plus its broadcast bias (`ref0_eq`, `region0_value`).
-/
import proofs.«109458_j5609227288944_1_alg».proof.Proof.Gen.KernelIdeal.Frame
import proofs.«109458_j5609227288944_1_alg».proof.Proof.RefRead
import proofs.«109458_j5609227288944_1_alg».proof.Proof.LibPlainProduct
import Idealize.ShloMosaic.Lib.Pipeline.Value
import Idealize.ShloMosaic.Lib.ValueIdx
import Idealize.ShloMosaic.PureOps.Ideal

noncomputable section

namespace Cert.KernelIdeal.RegionValue.Region0

open Cert.KernelIdeal Cert.KernelIdeal.Gen Idealize.ShloMosaic Idealize.ShloMosaic.ValueIdx Idealize.ShloMosaic.TcCoe

/-- The zero offsets of a rank-two rectangle, as the constant function. -/
theorem zero_offsets : (![0, 0] : Fin 2 → Nat) = fun _ => 0 := funext fun a => by fin_cases a <;> rfl

/-! ## The first product: a 1000×1024 block by the 1024×2048 matrix, plus the bias row -/

/-- The block's dimension numbers are the plain ones: contract the left operand's columns with the right operand's rows. -/
theorem dims0_plain : dot_S1000x1024_S1024x2048_S1000x2048_1_0_0_1_n_n = DotDims.plain 1000 1024 2048 := rfl

/-- What the body stores, at row `p` and column `q` of the block: the inner product of row `p` of the left block with
    column `q` of the matrix, plus entry `q` of the bias row. -/
theorem pay0_apply (v0 : Vec Ideal S1000x1024 .bf16) (v2 : Vec Ideal S1024x2048 .bf16) (v5 : Vec Ideal S1x2048 .f32)
    (p : Fin 1000) (q : Fin 2048) :
    k0_pay1 (F := Ideal) v0 v2 v5 (ix2 p q)
      = (∑ k : Fin 1024, v0 (ix2 p k) * v2 (ix2 k q)) + v5 (ix2 (0 : Fin 1) q) := by
  have e1 : matmul (φ₁ := .bf16) (φ₂ := .bf16) dot_S1000x1024_S1024x2048_S1000x2048_1_0_0_1_n_n none
        (shapeCast S1000x1024 (v0 : FVec Ideal S1000x1024 .bf16) shapeCasts_S1000x1024_S1000x1024)
        (shapeCast S1024x2048 (v2 : FVec Ideal S1024x2048 .bf16) shapeCasts_S1024x2048_S1024x2048)
        (constant (F := Ideal) S1000x2048 .f32 0x00000000#32) (ix2 p q)
      = ∑ k : Fin 1024, v0 (ix2 p k) * v2 (ix2 k q) := by
    rw [shapeCast_self, shapeCast_self, dims0_plain]
    exact Cert.LibPlainProduct.matmul_plain_zero_apply (φ₁ := .bf16) (φ₂ := .bf16) none v0 v2 p q
  have e2 : broadcastTo S1000x2048 (shapeCast S1x2048 (v5 : FVec Ideal S1x2048 .f32) shapeCasts_S1x2048_S1x2048) broadcasts_S1x2048_S1000x2048 (ix2 p q)
      = v5 (ix2 (0 : Fin 1) q) := by
    rw [shapeCast_self]
    exact broadcastTo_apply v5 broadcasts_S1x2048_S1000x2048 (ix2 p q) (ix2 (0 : Fin 1) q) (fun a => match a with
      | ⟨0, _⟩ => by show (0 : Nat) = if (1 : Nat) = 1 then 0 else _; rw [if_pos rfl]
      | ⟨1, _⟩ => by show q.val = if (2048 : Nat) = 1 then 0 else q.val; rw [if_neg (by decide)])
  exact congrArg₂ (· + ·) e1 e2

/-- The index maps, decided over the twenty points: the left operand's and the result's blocks move down one block of
    rows per point, the right operand and the bias row are whole at every point. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the region leaves, as one function of the three arrays it reads: at row `r` and column `q`, the inner
    product of row `r` of the left matrix with column `q` of the right one, plus entry `q` of the bias row. -/
def G0 (A : S20000x1024.Idx → EReal) (B : S1024x2048.Idx → EReal) (b : S1x2048.Idx → EReal) : S20000x2048.Idx → EReal :=
  fun i => (∑ k : Fin 1024, A (ix2 (⟨(i 0).val, (i 0).isLt⟩ : Fin 20000) k) * B (ix2 k (⟨(i 1).val, (i 1).isLt⟩ : Fin 2048)))
    + b (ix2 (0 : Fin 1) (⟨(i 1).val, (i 1).isLt⟩ : Fin 2048))

theorem G0_apply (A : S20000x1024.Idx → EReal) (B : S1024x2048.Idx → EReal) (b : S1x2048.Idx → EReal) (r : Fin 20000) (q : Fin 2048) :
    G0 A B b (ix2 r q) = (∑ k : Fin 1024, A (ix2 r k) * B (ix2 k q)) + b (ix2 (0 : Fin 1) q) := rfl

section Blocks0

variable (V : (c : Dev nD) → (b : Ref sig .tc) → Buf (Elt Ideal) ((c : Thread nD τ).loc b)) (c : Dev nD)

/-- The left operand's block at point `t` is rows `1000 t … 1000 t + 999` of its array. -/
theorem iblk0_0_apply (t : Fin cfg0.N) (p : Fin 1000) (k : Fin 1024) (r : Fin 20000) (hr : r.val = t.val * 1000 + p.val) :
    (iblk0 (F := Ideal) V c 0 t : Vec Ideal S1000x1024 .bf16) (ix2 p k) = (V c main_v2 : S20000x1024.Idx → EReal) (ix2 r k) := by
  obtain ⟨e0, e1, -⟩ := index_facts0 t
  show (V c main_v2 : S20000x1024.Idx → EReal) (((cfg0.win 0).blk t).view.emb (ix2 p k)) = _
  refine congrArg (V c main_v2 : S20000x1024.Idx → EReal) (funext fun a => Fin.ext ?_)
  match a with
  | ⟨0, _⟩ => show win0_0.index t (0 : Fin 2) * 1000 + 1 * p.val = r.val; rw [e0, hr]; omega
  | ⟨1, _⟩ => show win0_0.index t (1 : Fin 2) * 1024 + 1 * k.val = k.val; rw [e1]; omega

/-- The right operand's block at every point is its whole array. -/
theorem iblk0_1_apply (t : Fin cfg0.N) (k : Fin 1024) (q : Fin 2048) :
    (iblk0 (F := Ideal) V c 1 t : Vec Ideal S1024x2048 .bf16) (ix2 k q) = (V c main_v3 : S1024x2048.Idx → EReal) (ix2 k q) := by
  obtain ⟨-, -, e2, e3, -⟩ := index_facts0 t
  show (V c main_v3 : S1024x2048.Idx → EReal) (((cfg0.win 1).blk t).view.emb (ix2 k q)) = _
  refine congrArg (V c main_v3 : S1024x2048.Idx → EReal) (funext fun a => Fin.ext ?_)
  match a with
  | ⟨0, _⟩ => show win0_1.index t (0 : Fin 2) * 1024 + 1 * k.val = k.val; rw [e2]; omega
  | ⟨1, _⟩ => show win0_1.index t (1 : Fin 2) * 2048 + 1 * q.val = q.val; rw [e3]; omega

/-- The bias row's block at every point is its whole array. -/
theorem iblk0_2_apply (t : Fin cfg0.N) (z : Fin 1) (q : Fin 2048) :
    (iblk0 (F := Ideal) V c 2 t : Vec Ideal S1x2048 .f32) (ix2 z q) = (V c main_v4 : S1x2048.Idx → EReal) (ix2 z q) := by
  obtain ⟨-, -, -, -, e4, e5, -⟩ := index_facts0 t
  show (V c main_v4 : S1x2048.Idx → EReal) (((cfg0.win 2).blk t).view.emb (ix2 z q)) = _
  refine congrArg (V c main_v4 : S1x2048.Idx → EReal) (funext fun a => Fin.ext ?_)
  match a with
  | ⟨0, _⟩ => show win0_2.index t (0 : Fin 2) * 1 + 1 * z.val = z.val; rw [e4]; omega
  | ⟨1, _⟩ => show win0_2.index t (1 : Fin 2) * 2048 + 1 * q.val = q.val; rw [e5]; omega

/-- What point `t` writes back is block `t` of `G0` of the arrays as the region finds them. -/
theorem flushed0_eq (t : Fin cfg0.N) :
    (dat0 (F := Ideal) V c).flushed 3 t
      = ((cfg0.win 3).blk t).view.read (Elt Ideal) (G0 (V c main_v2) (V c main_v3) (V c main_v4)) := by
  show (cfg0.win 3).cut (grid0.coords t) ((dat0 V c).after 3 t) = _
  rw [after0_3]
  unfold out0_3
  rw [View.canon_unit_zero zero_offsets]
  simp only [View.ld_unit_zero (S := S1000x1024) zero_offsets, View.ld_unit_zero (S := S1024x2048) zero_offsets,
    View.ld_unit_zero (S := S1x2048) zero_offsets]
  obtain ⟨-, -, -, -, -, -, e6, e7⟩ := index_facts0 t
  have hN : cfg0.N = 20 := N_0
  have ht : t.val < 20 := hN ▸ t.isLt
  funext j
  obtain ⟨p, q, rfl⟩ : ∃ (p : Fin 1000) (q : Fin 2048), j = ix2 p q := ⟨j 0, j 1, eq_ix2 j⟩
  have hr : t.val * 1000 + p.val < 20000 := by have := p.isLt; omega
  show k0_pay1 (F := Ideal) (iblk0 V c 0 t) (iblk0 V c 1 t) (iblk0 V c 2 t) (ix2 p q)
    = G0 (V c main_v2) (V c main_v3) (V c main_v4) (((cfg0.win 3).blk t).view.emb (ix2 p q))
  have hemb : ((cfg0.win 3).blk t).view.emb (ix2 p q) = ix2 (⟨t.val * 1000 + p.val, hr⟩ : Fin 20000) q := by
    funext a; apply Fin.ext
    match a with
    | ⟨0, _⟩ => show win0_3.index t (0 : Fin 2) * 1000 + 1 * p.val = t.val * 1000 + p.val; rw [e6]; omega
    | ⟨1, _⟩ => show win0_3.index t (1 : Fin 2) * 2048 + 1 * q.val = q.val; rw [e7]; omega
  rw [hemb, G0_apply]
  refine (pay0_apply _ _ _ p q).trans ?_
  exact congrArg₂ (· + ·)
    (Finset.sum_congr rfl fun k _ => congrArg₂ (· * ·) (iblk0_0_apply V c t p k _ rfl) (iblk0_1_apply V c t k q))
    (iblk0_2_apply V c t 0 q)

end Blocks0

/-- An index of the result array is in point `t`'s block iff each coordinate is in the block's range on its axis. -/
theorem mem_blk0 (t : Fin cfg0.N) (i : S20000x2048.Idx) :
    i ∈ ((cfg0.win 3).blk t).view.set ↔ ∀ a : Fin 2, win0_3.index t a * S1000x2048.size a ≤ (i a).val
      ∧ (i a).val < win0_3.index t a * S1000x2048.size a + S1000x2048.size a := by
  show i ∈ ((View.whole main_v5).slice (win0_3.rect t)).set ↔ _
  rw [View.set_slice_whole, Rect.mem_set_unit]
  exact Iff.rfl

/-- Every index of the result array is in some point's block: row `r` is in the block of point `r / 1000`. -/
theorem cover0 (i : S20000x2048.Idx) :
    ∃ t : Fin cfg0.N, (cfg0.win 3).flush t = true ∧ i ∈ ((cfg0.win 3).blk t).view.set := by
  have hi0 : (i 0).val < 20000 := (i 0).isLt
  have hi1 : (i 1).val < 2048 := (i 1).isLt
  have hN : cfg0.N = 20 := N_0
  have hlt : (i 0).val / 1000 < cfg0.N := by rw [hN]; omega
  obtain ⟨t, ht⟩ : ∃ t : Fin cfg0.N, t.val = (i 0).val / 1000 := ⟨⟨_, hlt⟩, rfl⟩
  obtain ⟨-, -, -, -, -, -, e6, e7⟩ := index_facts0 t
  refine ⟨t, flush0_3 t, ?_⟩
  rw [mem_blk0]
  intro a
  match a with
  | ⟨0, _⟩ =>
    show win0_3.index t (0 : Fin 2) * 1000 ≤ (i 0).val ∧ (i 0).val < win0_3.index t (0 : Fin 2) * 1000 + 1000
    rw [e6, ht]; omega
  | ⟨1, _⟩ =>
    show win0_3.index t (1 : Fin 2) * 2048 ≤ (i 1).val ∧ (i 1).val < win0_3.index t (1 : Fin 2) * 2048 + 2048
    rw [e7]; omega

/-- The result array after the region is `G0` of the arrays the region finds. -/
theorem arr0_eq (V : (c : Dev nD) → (b : Ref sig .tc) → Buf (Elt Ideal) ((c : Thread nD τ).loc b)) (c : Dev nD) :
    (dat0 (F := Ideal) V c).arrAt 3 cfg0.N = G0 (V c main_v2) (V c main_v3) (V c main_v4) :=
  (dat0 V c).arrAt_eq_of_cover 3 (G0 (V c main_v2) (V c main_v3) (V c main_v4)) (fun t _ => flushed0_eq V c t) cover0

/-! ## The reference's first stage is the same function of its arguments -/

/-- The reference's product plus its broadcast bias, index by index, is `G0` of the reference's arguments: the two
    matrices rounded to the operand type (the identity on the extended reals) and the bias viewed as a row. -/
theorem ref0_eq (x0 : (⟨Cert.ReferenceIdeal.S20000x1024, .f32⟩ : BufTy).Contents (Elt Ideal))
    (x6 : (⟨Cert.ReferenceIdeal.S1024x2048, .f32⟩ : BufTy).Contents (Elt Ideal))
    (x7 : (⟨Cert.ReferenceIdeal.S2048, .f32⟩ : BufTy).Contents (Elt Ideal)) :
    G0 (truncf (F := Ideal) (s := S20000x1024) (φ := .f32) .bf16 x0 Facts₀.bitsLt_bf16_f32)
        (truncf (F := Ideal) (s := S1024x2048) (φ := .f32) .bf16 x6 Facts₀.bitsLt_bf16_f32)
        (shapeCast S1x2048 (x7 : (⟨S2048, .f32⟩ : BufTy).Contents (Elt Ideal)) Facts₀.shapeCasts_S2048_S1x2048)
      = Cert.ReferenceIdeal.Read.val_main_v5 (F := Ideal) x0 x6 x7 := by
  funext i
  obtain ⟨r, q, rfl⟩ : ∃ (r : Fin 20000) (q : Fin 2048), i = ix2 r q := ⟨i 0, i 1, eq_ix2 i⟩
  have el : ∀ k : Fin 1024, Cert.ReferenceIdeal.Read.lidx_main_v2 (ix2 r q) k = ix2 r k := fun k =>
    funext fun a => by match a with | ⟨0, _⟩ => rfl | ⟨1, _⟩ => rfl
  have er : ∀ k : Fin 1024, Cert.ReferenceIdeal.Read.ridx_main_v2 (ix2 r q) k = ix2 k q := fun k =>
    funext fun a => by match a with | ⟨0, _⟩ => rfl | ⟨1, _⟩ => rfl
  have eb : shapeCast S1x2048 (x7 : (⟨S2048, .f32⟩ : BufTy).Contents (Elt Ideal)) Facts₀.shapeCasts_S2048_S1x2048 (ix2 (0 : Fin 1) q)
      = x7 (Cert.ReferenceIdeal.Read.idx_main_v3 (Cert.ReferenceIdeal.Read.idx_main_v4 (ix2 r q))) :=
    shapeCast_apply _ _ _ _ (by
      rewrite [Shape.rowMajor_val_one, Shape.rowMajor_val_two]; show q.val = 0 * 2048 + q.val; omega)
  rw [G0_apply, Cert.ReferenceIdeal.Read.val_main_v5_apply, Cert.ReferenceIdeal.Read.val_main_v2_apply,
    Cert.ReferenceIdeal.Read.val_main_v4_apply, Cert.ReferenceIdeal.Read.val_main_v3_apply]
  simp only [el, er]
  show (∑ k : Fin 1024, x0 (ix2 r k) * x6 (ix2 k q)) + _ = (∑ k : Fin 1024, x0 (ix2 r k) * x6 (ix2 k q)) + _
  rw [eb]

end Cert.KernelIdeal.RegionValue.Region0

namespace Cert.KernelIdeal.RegionValue

open Cert.KernelIdeal Cert.KernelIdeal.Gen Idealize.ShloMosaic Idealize.ShloMosaic.ValueIdx Idealize.ShloMosaic.TcCoe
open Cert.KernelIdeal.RegionValue.Region0

/-- THE FIRST REGION'S VALUE: entered with the left and right matrices at the reference's arguments rounded to the operand
    type and the bias row at the reference's bias vector reshaped, the region leaves the reference's product plus bias. -/
theorem region0_value (V : (c : Dev nD) → (b : Ref sig .tc) → Buf (Elt Ideal) ((c : Thread nD τ).loc b)) (c : Dev nD)
    (x0 : (⟨Cert.ReferenceIdeal.S20000x1024, .f32⟩ : BufTy).Contents (Elt Ideal))
    (x6 : (⟨Cert.ReferenceIdeal.S1024x2048, .f32⟩ : BufTy).Contents (Elt Ideal))
    (x7 : (⟨Cert.ReferenceIdeal.S2048, .f32⟩ : BufTy).Contents (Elt Ideal))
    (h2 : V c main_v2 = truncf (F := Ideal) (s := S20000x1024) (φ := .f32) .bf16 x0 Facts₀.bitsLt_bf16_f32)
    (h3 : V c main_v3 = truncf (F := Ideal) (s := S1024x2048) (φ := .f32) .bf16 x6 Facts₀.bitsLt_bf16_f32)
    (h4 : V c main_v4 = shapeCast S1x2048 (x7 : (⟨S2048, .f32⟩ : BufTy).Contents (Elt Ideal)) Facts₀.shapeCasts_S2048_S1x2048) :
    (dat0 (F := Ideal) V c).arrAt 3 cfg0.N = Cert.ReferenceIdeal.Read.val_main_v5 (F := Ideal) x0 x6 x7 := by
  rw [arr0_eq, h2, h3, h4]
  exact ref0_eq x0 x6 x7

end Cert.KernelIdeal.RegionValue

end
-- ==== Proof.RegionMatmul1.lean ====
/-
  The second matrix product of the kernel program, read as one array.

  The region walks twenty blocks of a thousand rows. At each block it multiplies the block of the left matrix by the
  whole right matrix, accumulating into zero, and adds the bias row to every row of the product. So the array it leaves
  holds, at row `r` and column `q`, `∑ k, A (r, k) · B (k, q) + b (0, q)`, where `A`, `B`, `b` are the arrays the
  region finds (`G1`; `arr1_eq`). When those are a left matrix and the reference's right matrix rounded to the operand
  type, which on the extended reals changes nothing, and the bias vector viewed as a one-row matrix, that function is the
  plain product of the two matrices plus the reference's broadcast bias (`ref1_eq`, `region1_value`).
-/
import proofs.«109458_j5609227288944_1_alg».proof.Proof.Gen.KernelIdeal.Frame
import proofs.«109458_j5609227288944_1_alg».proof.Proof.RefRead
import proofs.«109458_j5609227288944_1_alg».proof.Proof.LibPlainProduct
import Idealize.ShloMosaic.Lib.Pipeline.Value
import Idealize.ShloMosaic.Lib.ValueIdx
import Idealize.ShloMosaic.Lib.StackMember
import Idealize.ShloMosaic.PureOps.Ideal

noncomputable section

namespace Cert.KernelIdeal.RegionValue.Region1

open Cert.KernelIdeal Cert.KernelIdeal.Gen Idealize.ShloMosaic Idealize.ShloMosaic.ValueIdx Idealize.ShloMosaic.TcCoe

/-- The zero offsets of a rank-two rectangle, as the constant function. -/
theorem zero_offsets : (![0, 0] : Fin 2 → Nat) = fun _ => 0 := funext fun a => by fin_cases a <;> rfl

/-! ## The second product: a 1000×2048 block by the 2048×512 matrix, plus the bias row -/

/-- The block's dimension numbers are the plain ones: contract the left operand's columns with the right operand's rows. -/
theorem dims1_plain : dot_S1000x2048_S2048x512_S1000x512_1_0_0_1_n_n = DotDims.plain 1000 2048 512 := rfl

/-- What the body stores, at row `p` and column `q` of the block: the inner product of row `p` of the left block with
    column `q` of the matrix, plus entry `q` of the bias row. -/
theorem pay1_apply (v0 : Vec Ideal S1000x2048 .bf16) (v2 : Vec Ideal S2048x512 .bf16) (v5 : Vec Ideal S1x512 .f32)
    (p : Fin 1000) (q : Fin 512) :
    k1_pay1 (F := Ideal) v0 v2 v5 (ix2 p q)
      = (∑ k : Fin 2048, v0 (ix2 p k) * v2 (ix2 k q)) + v5 (ix2 (0 : Fin 1) q) := by
  have e1 : matmul (φ₁ := .bf16) (φ₂ := .bf16) dot_S1000x2048_S2048x512_S1000x512_1_0_0_1_n_n none
        (shapeCast S1000x2048 (v0 : FVec Ideal S1000x2048 .bf16) shapeCasts_S1000x2048_S1000x2048)
        (shapeCast S2048x512 (v2 : FVec Ideal S2048x512 .bf16) shapeCasts_S2048x512_S2048x512)
        (constant (F := Ideal) S1000x512 .f32 0x00000000#32) (ix2 p q)
      = ∑ k : Fin 2048, v0 (ix2 p k) * v2 (ix2 k q) := by
    rw [shapeCast_self, shapeCast_self, dims1_plain]
    exact Cert.LibPlainProduct.matmul_plain_zero_apply (φ₁ := .bf16) (φ₂ := .bf16) none v0 v2 p q
  have e2 : broadcastTo S1000x512 (shapeCast S1x512 (v5 : FVec Ideal S1x512 .f32) shapeCasts_S1x512_S1x512) broadcasts_S1x512_S1000x512 (ix2 p q)
      = v5 (ix2 (0 : Fin 1) q) := by
    rw [shapeCast_self]
    exact broadcastTo_apply v5 broadcasts_S1x512_S1000x512 (ix2 p q) (ix2 (0 : Fin 1) q) (fun a => match a with
      | ⟨0, _⟩ => by show (0 : Nat) = if (1 : Nat) = 1 then 0 else _; rw [if_pos rfl]
      | ⟨1, _⟩ => by show q.val = if (512 : Nat) = 1 then 0 else q.val; rw [if_neg (by decide)])
  exact congrArg₂ (· + ·) e1 e2

/-- The index maps, decided over the twenty points: the left operand's and the result's blocks move down one block of
    rows per point, the right operand and the bias row are whole at every point. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The array the region leaves, as one function of the three arrays it reads: at row `r` and column `q`, the inner
    product of row `r` of the left matrix with column `q` of the right one, plus entry `q` of the bias row. -/
def G1 (A : S20000x2048.Idx → EReal) (B : S2048x512.Idx → EReal) (b : S1x512.Idx → EReal) : S20000x512.Idx → EReal :=
  fun i => (∑ k : Fin 2048, A (ix2 (⟨(i 0).val, (i 0).isLt⟩ : Fin 20000) k) * B (ix2 k (⟨(i 1).val, (i 1).isLt⟩ : Fin 512)))
    + b (ix2 (0 : Fin 1) (⟨(i 1).val, (i 1).isLt⟩ : Fin 512))

theorem G1_apply (A : S20000x2048.Idx → EReal) (B : S2048x512.Idx → EReal) (b : S1x512.Idx → EReal) (r : Fin 20000) (q : Fin 512) :
    G1 A B b (ix2 r q) = (∑ k : Fin 2048, A (ix2 r k) * B (ix2 k q)) + b (ix2 (0 : Fin 1) q) := rfl

section Blocks1

variable (V : (c : Dev nD) → (b : Ref sig .tc) → Buf (Elt Ideal) ((c : Thread nD τ).loc b)) (c : Dev nD)

/-- The left operand's block at point `t` is rows `1000 t … 1000 t + 999` of its array. -/
theorem iblk1_0_apply (t : Fin cfg1.N) (p : Fin 1000) (k : Fin 2048) (r : Fin 20000) (hr : r.val = t.val * 1000 + p.val) :
    (iblk1 (F := Ideal) V c 0 t : Vec Ideal S1000x2048 .bf16) (ix2 p k) = (V c main_v141 : S20000x2048.Idx → EReal) (ix2 r k) := by
  obtain ⟨e0, e1, -⟩ := index_facts1 t
  show (V c main_v141 : S20000x2048.Idx → EReal) (((cfg1.win 0).blk t).view.emb (ix2 p k)) = _
  refine congrArg (V c main_v141 : S20000x2048.Idx → EReal) (funext fun a => Fin.ext ?_)
  match a with
  | ⟨0, _⟩ => show win1_0.index t (0 : Fin 2) * 1000 + 1 * p.val = r.val; rw [e0, hr]; omega
  | ⟨1, _⟩ => show win1_0.index t (1 : Fin 2) * 2048 + 1 * k.val = k.val; rw [e1]; omega

/-- The right operand's block at every point is its whole array. -/
theorem iblk1_1_apply (t : Fin cfg1.N) (k : Fin 2048) (q : Fin 512) :
    (iblk1 (F := Ideal) V c 1 t : Vec Ideal S2048x512 .bf16) (ix2 k q) = (V c main_v142 : S2048x512.Idx → EReal) (ix2 k q) := by
  obtain ⟨-, -, e2, e3, -⟩ := index_facts1 t
  show (V c main_v142 : S2048x512.Idx → EReal) (((cfg1.win 1).blk t).view.emb (ix2 k q)) = _
  refine congrArg (V c main_v142 : S2048x512.Idx → EReal) (funext fun a => Fin.ext ?_)
  match a with
  | ⟨0, _⟩ => show win1_1.index t (0 : Fin 2) * 2048 + 1 * k.val = k.val; rw [e2]; omega
  | ⟨1, _⟩ => show win1_1.index t (1 : Fin 2) * 512 + 1 * q.val = q.val; rw [e3]; omega

/-- The bias row's block at every point is its whole array. -/
theorem iblk1_2_apply (t : Fin cfg1.N) (z : Fin 1) (q : Fin 512) :
    (iblk1 (F := Ideal) V c 2 t : Vec Ideal S1x512 .f32) (ix2 z q) = (V c main_v143 : S1x512.Idx → EReal) (ix2 z q) := by
  obtain ⟨-, -, -, -, e4, e5, -⟩ := index_facts1 t
  show (V c main_v143 : S1x512.Idx → EReal) (((cfg1.win 2).blk t).view.emb (ix2 z q)) = _
  refine congrArg (V c main_v143 : S1x512.Idx → EReal) (funext fun a => Fin.ext ?_)
  match a with
  | ⟨0, _⟩ => show win1_2.index t (0 : Fin 2) * 1 + 1 * z.val = z.val; rw [e4]; omega
  | ⟨1, _⟩ => show win1_2.index t (1 : Fin 2) * 512 + 1 * q.val = q.val; rw [e5]; omega

/-- What point `t` writes back is block `t` of `G1` of the arrays as the region finds them. -/
theorem flushed1_eq (t : Fin cfg1.N) :
    (dat1 (F := Ideal) V c).flushed 3 t
      = ((cfg1.win 3).blk t).view.read (Elt Ideal) (G1 (V c main_v141) (V c main_v142) (V c main_v143)) := by
  show (cfg1.win 3).cut (grid1.coords t) ((dat1 V c).after 3 t) = _
  rw [after1_3]
  unfold out1_3
  rw [View.canon_unit_zero zero_offsets]
  simp only [View.ld_unit_zero (S := S1000x2048) zero_offsets, View.ld_unit_zero (S := S2048x512) zero_offsets,
    View.ld_unit_zero (S := S1x512) zero_offsets]
  obtain ⟨-, -, -, -, -, -, e6, e7⟩ := index_facts1 t
  have hN : cfg1.N = 20 := N_1
  have ht : t.val < 20 := hN ▸ t.isLt
  funext j
  obtain ⟨p, q, rfl⟩ : ∃ (p : Fin 1000) (q : Fin 512), j = ix2 p q := ⟨j 0, j 1, eq_ix2 j⟩
  have hr : t.val * 1000 + p.val < 20000 := by have := p.isLt; omega
  show k1_pay1 (F := Ideal) (iblk1 V c 0 t) (iblk1 V c 1 t) (iblk1 V c 2 t) (ix2 p q)
    = G1 (V c main_v141) (V c main_v142) (V c main_v143) (((cfg1.win 3).blk t).view.emb (ix2 p q))
  have hemb : ((cfg1.win 3).blk t).view.emb (ix2 p q) = ix2 (⟨t.val * 1000 + p.val, hr⟩ : Fin 20000) q := by
    funext a; apply Fin.ext
    match a with
    | ⟨0, _⟩ => show win1_3.index t (0 : Fin 2) * 1000 + 1 * p.val = t.val * 1000 + p.val; rw [e6]; omega
    | ⟨1, _⟩ => show win1_3.index t (1 : Fin 2) * 512 + 1 * q.val = q.val; rw [e7]; omega
  rw [hemb, G1_apply]
  refine (pay1_apply _ _ _ p q).trans ?_
  exact congrArg₂ (· + ·)
    (Finset.sum_congr rfl fun k _ => congrArg₂ (· * ·) (iblk1_0_apply V c t p k _ rfl) (iblk1_1_apply V c t k q))
    (iblk1_2_apply V c t 0 q)

end Blocks1

/-- An index of the result array is in point `t`'s block iff each coordinate is in the block's range on its axis. -/
theorem mem_blk1 (t : Fin cfg1.N) (i : S20000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v144).slice (win1_3.rect t)).set ↔ _
  rw [View.set_slice_whole, Rect.mem_set_unit]
  exact Iff.rfl

/-- Every index of the result array is in some point's block: row `r` is in the block of point `r / 1000`. -/
theorem cover1 (i : S20000x512.Idx) :
    ∃ t : Fin cfg1.N, (cfg1.win 3).flush t = true ∧ i ∈ ((cfg1.win 3).blk t).view.set := by
  have hi0 : (i 0).val < 20000 := (i 0).isLt
  have hi1 : (i 1).val < 512 := (i 1).isLt
  have hN : cfg1.N = 20 := N_1
  have hlt : (i 0).val / 1000 < cfg1.N := by rw [hN]; omega
  obtain ⟨t, ht⟩ : ∃ t : Fin cfg1.N, t.val = (i 0).val / 1000 := ⟨⟨_, hlt⟩, rfl⟩
  obtain ⟨-, -, -, -, -, -, e6, e7⟩ := index_facts1 t
  refine ⟨t, flush1_3 t, ?_⟩
  rw [mem_blk1]
  intro a
  match a with
  | ⟨0, _⟩ =>
    show win1_3.index t (0 : Fin 2) * 1000 ≤ (i 0).val ∧ (i 0).val < win1_3.index t (0 : Fin 2) * 1000 + 1000
    rw [e6, ht]; omega
  | ⟨1, _⟩ =>
    show win1_3.index t (1 : Fin 2) * 512 ≤ (i 1).val ∧ (i 1).val < win1_3.index t (1 : Fin 2) * 512 + 512
    rw [e7]; omega

/-- The result array after the region is `G1` of the arrays the region finds. -/
theorem arr1_eq (V : (c : Dev nD) → (b : Ref sig .tc) → Buf (Elt Ideal) ((c : Thread nD τ).loc b)) (c : Dev nD) :
    (dat1 (F := Ideal) V c).arrAt 3 cfg1.N = G1 (V c main_v141) (V c main_v142) (V c main_v143) :=
  (dat1 V c).arrAt_eq_of_cover 3 (G1 (V c main_v141) (V c main_v142) (V c main_v143)) (fun t _ => flushed1_eq V c t) cover1

/-! ## The plain product plus the reference's broadcast bias is the same function -/

/-- The reference's dimension numbers for this product are the plain ones. -/
theorem refdims1_plain : Cert.ReferenceIdeal.dot_S20000x2048_S2048x512_S20000x512_1_0_0_1_n_n = DotDims.plain 20000 2048 512 := rfl

/-- The reference's product of a 20000×2048 by the 2048×512 matrix, at row `r` and column `q`. -/
theorem refdot1_apply (H : (⟨Cert.ReferenceIdeal.S20000x2048, .f32⟩ : BufTy).Contents (Elt Ideal))
    (x8 : (⟨Cert.ReferenceIdeal.S2048x512, .f32⟩ : BufTy).Contents (Elt Ideal)) (r : Fin 20000) (q : Fin 512) :
    Host.dotGeneral (F := Ideal) (φ₁ := .f32) (φ₂ := .f32) Cert.ReferenceIdeal.dot_S20000x2048_S2048x512_S20000x512_1_0_0_1_n_n none H x8 (ix2 r q)
      = ∑ k : Fin 2048, H (ix2 r k) * x8 (ix2 k q) := by
  rw [refdims1_plain]
  exact StackMember.dotGeneral_plain_apply (φ₁ := .f32) (φ₂ := .f32) none H x8 r q

/-- The product of a left matrix by the reference's right matrix plus the reference's broadcast bias, index by index, is
    `G1` of them: the two matrices rounded to the operand type (the identity on the extended reals) and the bias viewed
    as a row. -/
theorem ref1_eq (H : (⟨Cert.ReferenceIdeal.S20000x2048, .f32⟩ : BufTy).Contents (Elt Ideal))
    (x8 : (⟨Cert.ReferenceIdeal.S2048x512, .f32⟩ : BufTy).Contents (Elt Ideal))
    (x9 : (⟨Cert.ReferenceIdeal.S512, .f32⟩ : BufTy).Contents (Elt Ideal)) :
    G1 (truncf (F := Ideal) (s := S20000x2048) (φ := .f32) .bf16 H Facts₀.bitsLt_bf16_f32)
        (truncf (F := Ideal) (s := S2048x512) (φ := .f32) .bf16 x8 Facts₀.bitsLt_bf16_f32)
        (shapeCast S1x512 (x9 : (⟨S512, .f32⟩ : BufTy).Contents (Elt Ideal)) Facts₀.shapeCasts_S512_S1x512)
      = addf (F := Ideal) (φ := .f32) (Host.dotGeneral (F := Ideal) (φ₁ := .f32) (φ₂ := .f32) Cert.ReferenceIdeal.dot_S20000x2048_S2048x512_S20000x512_1_0_0_1_n_n none H x8)
          (Cert.ReferenceIdeal.Read.val_main_v143 (F := Ideal) x9) := by
  funext i
  obtain ⟨r, q, rfl⟩ : ∃ (r : Fin 20000) (q : Fin 512), i = ix2 r q := ⟨i 0, i 1, eq_ix2 i⟩
  have eb : shapeCast S1x512 (x9 : (⟨S512, .f32⟩ : BufTy).Contents (Elt Ideal)) Facts₀.shapeCasts_S512_S1x512 (ix2 (0 : Fin 1) q)
      = x9 (Cert.ReferenceIdeal.Read.idx_main_v142 (Cert.ReferenceIdeal.Read.idx_main_v143 (ix2 r q))) :=
    shapeCast_apply _ _ _ _ (by
      rewrite [Shape.rowMajor_val_one, Shape.rowMajor_val_two]; show q.val = 0 * 512 + q.val; omega)
  rw [G1_apply]
  show _ = Host.dotGeneral (F := Ideal) (φ₁ := .f32) (φ₂ := .f32) Cert.ReferenceIdeal.dot_S20000x2048_S2048x512_S20000x512_1_0_0_1_n_n none H x8 (ix2 r q)
    + Cert.ReferenceIdeal.Read.val_main_v143 (F := Ideal) x9 (ix2 r q)
  rw [refdot1_apply, Cert.ReferenceIdeal.Read.val_main_v143_apply, Cert.ReferenceIdeal.Read.val_main_v142_apply, ← eb]
  rfl

end Cert.KernelIdeal.RegionValue.Region1

namespace Cert.KernelIdeal.RegionValue

open Cert.KernelIdeal Cert.KernelIdeal.Gen Idealize.ShloMosaic Idealize.ShloMosaic.ValueIdx Idealize.ShloMosaic.TcCoe
open Cert.KernelIdeal.RegionValue.Region1

/-- THE SECOND REGION'S VALUE: entered with the left matrix at `H` and the right matrix at the reference's argument, both
    rounded to the operand type, and the bias row at the reference's bias vector reshaped, the region leaves the plain
    product of `H` by the right matrix plus the reference's broadcast bias. -/
theorem region1_value (V : (c : Dev nD) → (b : Ref sig .tc) → Buf (Elt Ideal) ((c : Thread nD τ).loc b)) (c : Dev nD)
    (H : (⟨Cert.ReferenceIdeal.S20000x2048, .f32⟩ : BufTy).Contents (Elt Ideal))
    (x8 : (⟨Cert.ReferenceIdeal.S2048x512, .f32⟩ : BufTy).Contents (Elt Ideal))
    (x9 : (⟨Cert.ReferenceIdeal.S512, .f32⟩ : BufTy).Contents (Elt Ideal))
    (h141 : V c main_v141 = truncf (F := Ideal) (s := S20000x2048) (φ := .f32) .bf16 H Facts₀.bitsLt_bf16_f32)
    (h142 : V c main_v142 = truncf (F := Ideal) (s := S2048x512) (φ := .f32) .bf16 x8 Facts₀.bitsLt_bf16_f32)
    (h143 : V c main_v143 = shapeCast S1x512 (x9 : (⟨S512, .f32⟩ : BufTy).Contents (Elt Ideal)) Facts₀.shapeCasts_S512_S1x512) :
    (dat1 (F := Ideal) V c).arrAt 3 cfg1.N
      = addf (F := Ideal) (φ := .f32) (Host.dotGeneral (F := Ideal) (φ₁ := .f32) (φ₂ := .f32) Cert.ReferenceIdeal.dot_S20000x2048_S2048x512_S20000x512_1_0_0_1_n_n none H x8)
          (Cert.ReferenceIdeal.Read.val_main_v143 (F := Ideal) x9) := by
  rw [arr1_eq, h141, h142, h143]
  exact ref1_eq H x8 x9

end Cert.KernelIdeal.RegionValue

end
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RegionNorm.lean ====
/-
  Region 2 of the kernel program normalises every row of a [20000, 512] array by its Euclidean length, floored at a
  small positive constant: entry (r, q) of the result is x(r, q) / max (sqrt (∑ l, x(r, l) * x(r, l))) ε. The region
  walks 20 blocks of 1000 rows; a row lies wholly inside one block, so the block-wise computation and the whole-array
  computation of the reference read the same row and are the same expression.
-/
import proofs.«109458_j5609227288944_1_alg».proof.Proof.Gen.KernelIdeal.Frame
import proofs.«109458_j5609227288944_1_alg».proof.Proof.RefRead
import proofs.«109458_j5609227288944_1_alg».proof.Proof.LibColumn
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

namespace Region2

/-- Entry (r, q) of a [20000, 512] array with every row divided by its floored Euclidean length. -/
def rowNormAt (h : (⟨2, ![20000, 512]⟩ : Shape).Idx → EReal) (r : Fin 20000) (q : Fin 512) : EReal :=
  Ideal.div (h (ix2 r q)) (max (Ideal.sqrt (∑ l : Fin 512, h (ix2 r l) * h (ix2 r l))) (Ideal.ofBits .f32 0x2B8CBCCC#32))

/-- The whole array of those entries. -/
def rowNorm (h : (⟨2, ![20000, 512]⟩ : Shape).Idx → EReal) : (⟨2, ![20000, 512]⟩ : Shape).Idx → EReal :=
  fun i => rowNormAt h ⟨(i 0).val, idx2_lt0 i⟩ ⟨(i 1).val, idx2_lt1 i⟩

/-- A lane sum of a [1000, 512] block at row p is the sum over the 512 entries of that row. -/
theorem rowsum_apply (v2 : FVec Ideal S1000x512 .f32) (p : Fin 1000) :
    multiReduction .add [1] S1000 v2 0x00000000#32 reduces_S1000x512_S1000 (.inl rfl) rfl (ix1 p)
      = ∑ l : Fin 512, v2 (ix2 p l) := by
  refine (Ideal.multiReduction_add_single v2 0x00000000#32 reduces_S1000x512_S1000 (.inl rfl) rfl (ix1 p)).trans ?_
  exact Finset.sum_congr rfl fun l _ => congrArg v2 (funext fun a => Fin.ext (by
    match a with
    | ⟨0, _⟩ => rfl
    | ⟨1, _⟩ => rfl))

/-- The body's payload at entry (p, q) of its block: the entry over the floored length of its row. -/
theorem pay_apply (v0 : FVec Ideal S1000x512 .f32) (p : Fin 1000) (q : Fin 512) :
    k2_pay1 (F := Ideal) v0 (ix2 p q)
      = Ideal.div (v0 (ix2 p q)) (max (Ideal.sqrt (∑ l : Fin 512, v0 (ix2 p l) * v0 (ix2 p l))) (Ideal.ofBits .f32 0x2B8CBCCC#32)) := by
  unfold k2_pay1
  dsimp only
  simp only [shapeCast_self]
  refine (divf_apply _ _ _).trans (congrArg (Ideal.div _) ?_)
  refine (Cert.LibColumn.broadcastTo_a1_ab_apply _ _ p q).trans ?_
  refine (maximumf_apply _ _ _).trans (congrArg₂ max ?_ rfl)
  show Ideal.sqrt (shapeCast S1000x1 _ shapeCasts_S1000_S1000x1 (ix2 p (0 : Fin 1))) = _
  refine congrArg Ideal.sqrt ?_
  refine (Cert.LibColumn.shapeCast_a_a1_apply _ _ p 0).trans ?_
  exact rowsum_apply _ p

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed block index maps, decided over the grid: at point t both windows sit at block (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The input window's block at point t, at (p, l), is the array at (1000 t + p, l). -/
theorem iblk_apply (c : Dev nD) (t : Fin cfg2.N) (p : Fin 1000) (l : Fin 512) (k : S20000x512.Idx)
    (hk0 : (k 0).val = t.val * 1000 + p.val) (hk1 : (k 1).val = l.val) :
    (iblk2 (F := Ideal) V c 0 t : Vec Ideal S1000x512 .f32) (ix2 p l) = (V c main_v272 : S20000x512.Idx → EReal) k := by
  obtain ⟨e0, e1, -, -⟩ := idx_facts t
  unfold iblk2
  rw [View.read_apply]
  show V c main_v272 _ = V c main_v272 _
  refine congrArg (V c main_v272) (funext fun a => Fin.ext ?_)
  match a with
  | ⟨0, _⟩ => show win2_0.index t 0 * 1000 + 1 * p.val = (k 0).val; rw [e0, hk0]; omega
  | ⟨1, _⟩ => show win2_0.index t 1 * 512 + 1 * l.val = (k 1).val; rw [e1, hk1]; omega

/-- One entry of a block's payload against one entry of the normalised array: rows 1000 n … 1000 n + 999 of the array
    are the block's rows, so the row sums agree. -/
theorem block_point (h : (⟨2, ![20000, 512]⟩ : Shape).Idx → EReal) (x0 : FVec Ideal S1000x512 .f32) (n : Nat) (hn : n < 20)
    (hx : ∀ (p : Fin 1000) (l : Fin 512) (r : Fin 20000), r.val = n * 1000 + p.val → x0 (ix2 p l) = h (ix2 r l))
    (y : (⟨2, ![1000, 512]⟩ : Shape).Idx) (r : Fin 20000) (s : Fin 512) (hr : r.val = n * 1000 + (y 0).val) (hs : s.val = (y 1).val) :
    k2_pay1 (F := Ideal) x0 y = rowNormAt h r s := by
  obtain ⟨p, q, rfl⟩ : ∃ (p : Fin 1000) (q : Fin 512), y = ix2 p q := ⟨y 0, y 1, eq_ix2 y⟩
  obtain rfl : s = q := Fin.ext hs
  refine (pay_apply x0 p s).trans ?_
  unfold rowNormAt
  rw [hx p s r hr]
  refine congrArg (fun z => Ideal.div (h (ix2 r s)) (max (Ideal.sqrt z) _)) ?_
  exact Finset.sum_congr rfl fun l _ => by rw [hx p l r hr]

end Blocks

section Array

variable (V : (c : Dev nD) → (b : Ref sig .tc) → Buf (Elt Ideal) ((c : Thread nD τ).loc b))

/-- What point t writes back is block t of the normalised array. -/
theorem flushed_eq (c : Dev nD) (t : Fin cfg2.N) :
    (dat2 (F := Ideal) V c).flushed 1 t = ((cfg2.win 1).blk t).view.read (Elt Ideal) (rowNorm (V c main_v272)) := by
  show (cfg2.win 1).cut (grid2.coords t) ((dat2 (F := Ideal) V c).after 1 t) = _
  rw [after2_1]
  unfold out2_1
  rw [View.canon_unit_zero hz]
  simp only [View.ld_unit_zero (S := S1000x512) hz]
  have hN : cfg2.N = 20 := N_2
  obtain ⟨-, -, e0, e1⟩ := idx_facts t
  funext j
  rw [View.read_apply]
  refine block_point (V c main_v272) (iblk2 (F := Ideal) V c 0 t) t.val (by omega)
    (fun p l r hr => iblk_apply V c t p l (ix2 r l) hr rfl) j _ _ ?_ ?_
  · show win2_1.index t 0 * 1000 + 1 * (j 0).val = t.val * 1000 + (j 0).val; rw [e0]; omega
  · show win2_1.index t 1 * 512 + 1 * (j 1).val = (j 1).val; rw [e1]; omega

/-- An index of the array is in point t's block iff each coordinate is in the block's range on its axis. -/
theorem mem_blk (t : Fin cfg2.N) (i : S20000x512.Idx) :
    i ∈ ((cfg2.win 1).blk t).view.set ↔ ∀ a : Fin 2, win2_1.index t a * S1000x512.size a ≤ (i a).val ∧ (i a).val < win2_1.index t a * S1000x512.size a + S1000x512.size a := by
  show i ∈ ((View.whole main_v273).slice (win2_1.rect t)).set ↔ _
  rw [View.set_slice_whole, Rect.mem_set_unit]
  exact Iff.rfl

/-- Row r is in the block of point r / 1000: the 20 blocks cover the array. -/
theorem cover (i : S20000x512.Idx) : ∃ t : Fin cfg2.N, (cfg2.win 1).flush t = true ∧ i ∈ ((cfg2.win 1).blk t).view.set := by
  have hi0 : (i 0).val < 20000 := idx2_lt0 i
  have hi1 : (i 1).val < 512 := idx2_lt1 i
  have hN : cfg2.N = 20 := N_2
  obtain ⟨t, ht⟩ : ∃ t : Fin cfg2.N, t.val = (i 0).val / 1000 := ⟨⟨(i 0).val / 1000, by rw [hN]; omega⟩, rfl⟩
  obtain ⟨-, -, e0, e1⟩ := idx_facts t
  refine ⟨t, flush2_1 t, ?_⟩
  rw [mem_blk]
  intro a
  match a with
  | ⟨0, _⟩ => show win2_1.index t 0 * 1000 ≤ (i 0).val ∧ (i 0).val < win2_1.index t 0 * 1000 + 1000; rw [e0]; omega
  | ⟨1, _⟩ => show win2_1.index t 1 * 512 ≤ (i 1).val ∧ (i 1).val < win2_1.index t 1 * 512 + 512; rw [e1]; omega

/-- After the region the output array holds the normalised input array. -/
theorem region2_rowNorm (c : Dev nD) : (dat2 (F := Ideal) V c).arrAt 1 cfg2.N = rowNorm (V c main_v272) :=
  (dat2 (F := Ideal) V c).arrAt_eq_of_cover 1 (rowNorm (V c main_v272)) (fun t _ => flushed_eq V c t) cover

end Array

section Reference

/-- The reference's chain of index maps from an entry (r, q) down to the summed operand reads row r at lane k. -/
theorem ref_idx (r : Fin 20000) (q k : Fin 512) :
    Cert.ReferenceIdeal.Read.idx_main_v274 (Cert.ReferenceIdeal.Read.idx_main_v275 (Cert.ReferenceIdeal.Read.idx_main_v279 (ix2 r q))) k = ix2 r k :=
  funext fun a => by
    match a with
    | ⟨0, _⟩ => rfl
    | ⟨1, _⟩ => rfl

/-- The reference's last stage is the normalised array of its stage 272: the same expression, entry by entry. -/
theorem ref_eq (x0 : (⟨Cert.ReferenceIdeal.S20000x1024, .f32⟩ : BufTy).Contents (Elt Ideal)) (x1 x2 x3 x4 : (⟨Cert.ReferenceIdeal.S3x100000, .i32⟩ : BufTy).Contents (Elt Ideal)) (x5 : (⟨Cert.ReferenceIdeal.S2x3, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal)) (x8 : (⟨Cert.ReferenceIdeal.S2048x512, .f32⟩ : BufTy).Contents (Elt Ideal)) (x9 : (⟨Cert.ReferenceIdeal.S512, .f32⟩ : BufTy).Contents (Elt Ideal)) :
    Cert.ReferenceIdeal.Read.val_main_v280 (F := Ideal) x0 x1 x2 x3 x4 x5 x6 x7 x8 x9 = rowNorm (Cert.ReferenceIdeal.Read.val_main_v272 (F := Ideal) x0 x1 x2 x3 x4 x5 x6 x7 x8 x9) := by
  funext i
  obtain ⟨r, q, rfl⟩ : ∃ (r : Fin 20000) (q : Fin 512), i = ix2 r q := ⟨i 0, i 1, eq_ix2 i⟩
  rw [Cert.ReferenceIdeal.Read.val_main_v280_apply, Cert.ReferenceIdeal.Read.val_main_v279_apply, Cert.ReferenceIdeal.Read.val_main_v278_apply, Cert.ReferenceIdeal.Read.val_main_v276_apply,
    Cert.ReferenceIdeal.Read.val_main_v275_apply, Cert.ReferenceIdeal.Read.val_main_v274_apply, Cert.ReferenceIdeal.Read.val_main_v277_apply, Cert.ReferenceIdeal.Read.val_main_cst_63_apply,
    Cert.ReferenceIdeal.Read.val_main_cst_62_apply]
  simp only [Cert.ReferenceIdeal.Read.val_main_v273_apply, ref_idx]
  generalize Cert.ReferenceIdeal.Read.val_main_v272 (F := Ideal) x0 x1 x2 x3 x4 x5 x6 x7 x8 x9 = h
  simp only [Ideal.hostDivf_def, Ideal.maximumf_def, Ideal.hostUnary_sqrt_def, Ideal.ofBits_def, Ideal.mulf_def,
    Ideal.ofBits_zero_f32, zero_add]
  rfl

end Reference

end Region2

section Statement

open Region2

/-- Region 2 leaves in its output array the reference's normalised stage, when it finds the reference's stage 272 in its
    input array. -/
theorem region2_value (V : (c : Dev nD) → (b : Ref sig .tc) → Buf (Elt Ideal) ((c : Thread nD τ).loc b)) (c : Dev nD)
    (x0 : (⟨Cert.ReferenceIdeal.S20000x1024, .f32⟩ : BufTy).Contents (Elt Ideal)) (x1 x2 x3 x4 : (⟨Cert.ReferenceIdeal.S3x100000, .i32⟩ : BufTy).Contents (Elt Ideal)) (x5 : (⟨Cert.ReferenceIdeal.S2x3, .f32⟩ : BufTy).Contents (Elt Ideal)) (x6 : (⟨Cert.ReferenceIdeal.S1024x2048, .f32⟩ : BufTy).Contents (Elt Ideal)) (x7 : (⟨Cert.ReferenceIdeal.S2048, .f32⟩ : BufTy).Contents (Elt Ideal)) (x8 : (⟨Cert.ReferenceIdeal.S2048x512, .f32⟩ : BufTy).Contents (Elt Ideal)) (x9 : (⟨Cert.ReferenceIdeal.S512, .f32⟩ : BufTy).Contents (Elt Ideal))
    (h272 : V c main_v272 = Cert.ReferenceIdeal.Read.val_main_v272 (F := Ideal) x0 x1 x2 x3 x4 x5 x6 x7 x8 x9) :
    (dat2 (F := Ideal) V c).arrAt 1 cfg2.N = Cert.ReferenceIdeal.Read.val_main_v280 (F := Ideal) x0 x1 x2 x3 x4 x5 x6 x7 x8 x9 := by
  refine (region2_rowNorm V c).trans ?_
  rw [h272]
  exact (ref_eq x0 x1 x2 x3 x4 x5 x6 x7 x8 x9).symm

end Statement

end Cert.KernelIdeal.RegionValue

end
-- ==== Proof.Glue.lean ====
/-
  The idealized kernel program's result is the reference's last stage of the same arguments.

  The boundary contents are followed from the launch to the return. The first host stretch narrows the features and
  the first weight matrix and lays the first bias out as a row; the first region then leaves, in its output array, the
  product plus the bias: the reference's first product stage. The stretch after it is the reference's own operations on
  that value and leaves the second product's operands; the second region leaves the reference's second product stage;
  the last stretch leaves the reference's layer-two output; and the third region divides every row by the larger of its
  Euclidean norm and the floor constant: the reference's result.
-/
import proofs.«109458_j5609227288944_1_alg».proof.Proof.KernelRun
import proofs.«109458_j5609227288944_1_alg».proof.Proof.HostChain1
import proofs.«109458_j5609227288944_1_alg».proof.Proof.HostChain2
import proofs.«109458_j5609227288944_1_alg».proof.Proof.RegionMatmul0
import proofs.«109458_j5609227288944_1_alg».proof.Proof.RegionMatmul1
import proofs.«109458_j5609227288944_1_alg».proof.Proof.RegionNorm

set_option maxRecDepth 16384

noncomputable section

namespace Cert.KernelIdeal.Whole

open Cert.KernelIdeal Cert.KernelIdeal.Gen Cert.ReferenceIdeal.Read Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first region -/

theorem V1_v2 : V1 m ρ c main_v2 = truncf (F := Ideal) (s := S20000x1024) (φ := .f32) .bf16 (m ((c : Thread nD τ).loc main_arg0)) Facts₀.bitsLt_bf16_f32 := by
  show StableHlo.after hostOps0 (W0 m ρ c) (Proc.devRef .tc main_v2) = _
  after_results <;> rfl
theorem V1_v3 : V1 m ρ c main_v3 = truncf (F := Ideal) (s := S1024x2048) (φ := .f32) .bf16 (m ((c : Thread nD τ).loc main_arg6)) Facts₀.bitsLt_bf16_f32 := by
  show StableHlo.after hostOps0 (W0 m ρ c) (Proc.devRef .tc main_v3) = _
  after_results <;> rfl
theorem V1_v4 : V1 m ρ c main_v4 = shapeCast S1x2048 ((m ((c : Thread nD τ).loc main_arg7)) : (⟨S2048, .f32⟩ : BufTy).Contents (Elt Ideal)) Facts₀.shapeCasts_S2048_S1x2048 := by
  show StableHlo.after hostOps0 (W0 m ρ c) (Proc.devRef .tc main_v4) = _
  after_results <;> rfl
theorem W1_v1 : W1 m ρ c (Proc.devRef .tc main_v1) = val_main_v1 (F := Ideal) (m ((c : Thread nD τ).loc main_arg5)) := by
  show StableHlo.after hostOps0 (W0 m ρ c) (Proc.devRef .tc main_v1) = _
  after_results <;> (simp only [val_main_v1, val_main_v0]) <;> rfl
theorem W1_arg1 : W1 m ρ c (Proc.devRef .tc main_arg1) = (m ((c : Thread nD τ).loc main_arg1)) := by
  show StableHlo.after hostOps0 (W0 m ρ c) (Proc.devRef .tc main_arg1) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg4 : W1 m ρ c (Proc.devRef .tc main_arg4) = (m ((c : Thread nD τ).loc main_arg4)) := by
  show StableHlo.after hostOps0 (W0 m ρ c) (Proc.devRef .tc main_arg4) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl
theorem W1_arg8 : W1 m ρ c (Proc.devRef .tc main_arg8) = (m ((c : Thread nD τ).loc main_arg8)) := by
  show StableHlo.after hostOps0 (W0 m ρ c) (Proc.devRef .tc main_arg8) = _
  after_results <;> rfl
theorem W1_arg9 : W1 m ρ c (Proc.devRef .tc main_arg9) = (m ((c : Thread nD τ).loc main_arg9)) := by
  show StableHlo.after hostOps0 (W0 m ρ c) (Proc.devRef .tc main_arg9) = _
  after_results <;> rfl

/-! ## After the first region -/

/-- The first region's output array is the reference's first product stage. -/
theorem W2_v5 : W2 m ρ c (Proc.devRef .tc main_v5) = val_main_v5 (F := Ideal) (m ((c : Thread nD τ).loc main_arg0)) (m ((c : Thread nD τ).loc main_arg6)) (m ((c : Thread nD τ).loc main_arg7)) :=
  (W2_arr m ρ c 3).trans (region0_value (V1 m ρ) c _ _ _ (V1_v2 m ρ c) (V1_v3 m ρ c) (V1_v4 m ρ c))
theorem W2_v1 : W2 m ρ c (Proc.devRef .tc main_v1) = val_main_v1 (F := Ideal) (m ((c : Thread nD τ).loc main_arg5)) :=
  (W2_of_ne m ρ c main_v1 (by decide)).trans (W1_v1 m ρ c)
theorem W2_arg1 : W2 m ρ c (Proc.devRef .tc main_arg1) = (m ((c : Thread nD τ).loc main_arg1)) :=
  (W2_of_ne m ρ c main_arg1 (by decide)).trans (W1_arg1 m ρ c)
theorem W2_arg2 : W2 m ρ c (Proc.devRef .tc main_arg2) = (m ((c : Thread nD τ).loc main_arg2)) :=
  (W2_of_ne m ρ c main_arg2 (by decide)).trans (W1_arg2 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)

/-! ## Before the second region -/

theorem W5_v141 : W5 m ρ c (Proc.devRef .tc main_v141)
    = truncf (F := Ideal) (s := S20000x2048) (φ := .f32) .bf16 (val_main_v138 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) Facts₀.bitsLt_bf16_f32 :=
  chain1_v141 (W2 m ρ c) _ _ _ _ _ _ (W2_v5 m ρ c) (W2_v1 m ρ c) (W2_arg1 m ρ c) (W2_arg2 m ρ c)
theorem W5_v140 : W5 m ρ c (Proc.devRef .tc main_v140) = val_main_v140 (F := Ideal) (m ((c : Thread nD τ).loc main_arg5)) :=
  chain1_v140 (W2 m ρ c) _ (W2_arg5 m ρ c)
theorem W5_v142 : W5 m ρ c (Proc.devRef .tc main_v142) = truncf (F := Ideal) (s := S2048x512) (φ := .f32) .bf16 (m ((c : Thread nD τ).loc main_arg8)) Facts₀.bitsLt_bf16_f32 :=
  chain1_v142 (W2 m ρ c) _ (W2_arg8 m ρ c)
theorem W5_v143 : W5 m ρ c (Proc.devRef .tc main_v143) = shapeCast S1x512 ((m ((c : Thread nD τ).loc main_arg9)) : (⟨S512, .f32⟩ : BufTy).Contents (Elt Ideal)) Facts₀.shapeCasts_S512_S1x512 :=
  chain1_v143 (W2 m ρ c) _ (W2_arg9 m ρ c)
set_option maxHeartbeats 400000000 in
theorem W5_arg3 : W5 m ρ c (Proc.devRef .tc main_arg3) = (m ((c : Thread nD τ).loc main_arg3)) := by
  show StableHlo.after hostOps1_2 (StableHlo.after hostOps1_1 (StableHlo.after hostOps1 (W2 m ρ c))) (Proc.devRef .tc main_arg3) = _
  after_results_simp
  exact W2_arg3 m ρ c
set_option maxHeartbeats 400000000 in
theorem W5_arg4 : W5 m ρ c (Proc.devRef .tc main_arg4) = (m ((c : Thread nD τ).loc main_arg4)) := by
  show StableHlo.after hostOps1_2 (StableHlo.after hostOps1_1 (StableHlo.after hostOps1 (W2 m ρ c))) (Proc.devRef .tc main_arg4) = _
  after_results_simp
  exact W2_arg4 m ρ c

/-! ## After the second region -/

/-- The second region's output array is the reference's second product stage. -/
theorem W6_v144 : W6 m ρ c (Proc.devRef .tc main_v144)
    = val_main_v144 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_arr m ρ c 3).trans ((region1_value (V5 m ρ) c _ _ _ (W5_v141 m ρ c) (W5_v142 m ρ c) (W5_v143 m ρ c)).trans
    (by simp only [val_main_v144, val_main_v141]))
theorem W6_v140 : W6 m ρ c (Proc.devRef .tc main_v140) = val_main_v140 (F := Ideal) (m ((c : Thread nD τ).loc main_arg5)) :=
  (W6_of_ne m ρ c main_v140 (by decide)).trans (W5_v140 m ρ c)
theorem W6_arg3 : W6 m ρ c (Proc.devRef .tc main_arg3) = (m ((c : Thread nD τ).loc main_arg3)) :=
  (W6_of_ne m ρ c main_arg3 (by decide)).trans (W5_arg3 m ρ c)
theorem W6_arg4 : W6 m ρ c (Proc.devRef .tc main_arg4) = (m ((c : Thread nD τ).loc main_arg4)) :=
  (W6_of_ne m ρ c main_arg4 (by decide)).trans (W5_arg4 m ρ c)

/-! ## Before and after the third region -/

theorem W7_v272 : W7 m ρ c (Proc.devRef .tc main_v272)
    = val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  chain2_v272 (W6 m ρ c) _ _ _ _ _ _ _ _ _ _ (W6_v144 m ρ c) (W6_v140 m ρ c) (W6_arg3 m ρ c) (W6_arg4 m ρ c)

/-- The program's result buffer, at the last boundary, is the reference's result stage of the launch arguments. -/
theorem W8_v273 : W8 m ρ c (Proc.devRef .tc main_v273)
    = val_main_v280 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 1).trans (region2_value (V7 m ρ) c _ _ _ _ _ _ _ _ _ _ (W7_v272 m ρ c))

end Cert.KernelIdeal.Whole

end
-- ==== Proof.lean ====
/-
  The certificate of a two-layer relational graph convolution followed by a row normalisation, against its plain
  array-library reference, on the extended reals.

  Each layer multiplies the node features by a weight matrix and adds a bias, then, for each of three relations,
  gathers the rows at the edges' sources, scales each by the reciprocal of its target's in-degree, adds them into the
  edges' targets, and sums the three results weighted by a softmax of the attention table's row; the first layer ends
  in a leaky rectifier. The result's rows are divided by the larger of their Euclidean norm and a floor constant.

  The kernel program computes the two matrix products and the normalisation in pipelined regions of twenty blocks of a
  thousand rows, on operands narrowed to a sixteen-bit format (the identity on the extended reals); everything else it
  does with the reference's own host operations. So the two programs agree stage by stage: a block's entry of a product
  is the same sum over the contracted axis, of the same terms, plus the same bias entry; an entry of the normalised
  block is the same quotient by the same row's norm. No algebraic law beyond reading both sides at an index is used, and
  the finiteness of the inputs is never needed.

  The three frames: the two kernel programs' by their generated frame certificates, the reference's by its generated run.
  The idealization rewrote nothing, so it preserves the program trivially.
-/
import proofs.«109458_j5609227288944_1_alg».proof.Defs
import proofs.«109458_j5609227288944_1_alg».proof.Proof.Gen.Kernel
import proofs.«109458_j5609227288944_1_alg».proof.Proof.Gen.Kernel.Frame
import proofs.«109458_j5609227288944_1_alg».proof.Proof.Gen.KernelIdeal
import proofs.«109458_j5609227288944_1_alg».proof.Proof.Gen.KernelIdeal.Frame
import proofs.«109458_j5609227288944_1_alg».proof.Proof.Gen.ReferenceIdeal
import proofs.«109458_j5609227288944_1_alg».proof.Proof.Gen.Pre_finite_inputs
import proofs.«109458_j5609227288944_1_alg».proof.Proof.RefRun
import proofs.«109458_j5609227288944_1_alg».proof.Proof.RefRead
import proofs.«109458_j5609227288944_1_alg».proof.Proof.KernelRun
import proofs.«109458_j5609227288944_1_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the arguments, the kernel program's result buffer ends at the reference's last stage of
    the arguments (the boundary contents followed through the three regions), and so does the reference's (its run,
    read stage by stage). -/
theorem algebraic : Cert.algebraic_KernelIdeal_ReferenceIdeal := by
  intro m ρ m' ρ' _ hagree
  refine ⟨fun c => Cert.ReferenceIdeal.Read.val_main_v280 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.W8_v273 m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v280_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
